-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3200000 : Shape := ⟨1, ![3200000]⟩
abbrev S3x64 : Shape := ⟨2, ![3, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg16 : FVec F S64x3 .f32) (main_arg17 : FVec F S3 .f32) (main_v63 : IVec S_ 1) (main_v67 : IVec S_ 1) : IVec S_ 1 :=
  let main_v68 : IVec S_ 1 := andi main_v63 main_v67
  let main_v69 : FVec F S64x3 .f32 := Host.absf main_arg16
  let main_cst_26 : FVec F S_ .f32 := constant S_ .f32 0x7F800000#32
  let main_v70 : FVec F S64x3 .f32 := broadcastInDim S64x3 ![] bcast_S_S64x3 main_cst_26
  let main_v71 : IVec S64x3 1 := cmpf .olt main_v69 main_v70
  let main_c_27 : IVec S_ 1 := constantI S_ 1 1#1
  let main_v72 : IVec S_ 1 := (fun x v => Host.reduce IntOp.andi x v reducesTo_S64x3_S_d0_1 h_S_) main_v71 main_c_27
  let main_v73 : IVec S_ 1 := andi main_v68 main_v72
  let main_v74 : FVec F S3 .f32 := Host.absf main_arg17
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg13 : FVec F S64x64 .f32) (main_arg14 : FVec F S64 .f32) (main_arg15 : FVec F S64x3 .f32) (main_arg16 : FVec F S64x3 .f32) (main_arg17 : FVec F S3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x3 .f32 := Host.absf main_arg15
  let main_cst_24 : FVec F S_ .f32 := constant S_ .f32 0x7F800000#32
  let main_v65 : FVec F S64x3 .f32 := broadcastInDim S64x3 ![] bcast_S_S64x3 main_cst_24
  let main_v66 : IVec S64x3 1 := cmpf .olt main_v64 main_v65
  let main_c_25 : IVec S_ 1 := constantI S_ 1 1#1
  let main_v67 : IVec S_ 1 := (fun x v => Host.reduce IntOp.andi x v reducesTo_S64x3_S_d0_1 h_S_) main_v66 main_c_25
  fn_part4 (F := F) main_arg16 main_arg17 main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x3 .f32) (main_arg16 : FVec F S64x3 .f32) (main_arg17 : FVec F S3 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x3 .f32) (main_arg16 : FVec F S64x3 .f32) (main_arg17 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x3 .f32) (main_arg1 : IVec S3200000 32) (main_arg2 : IVec S3200000 32) (main_arg3 : FVec F S3x64 .f32) (main_arg4 : FVec F S3x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x3 .f32) (main_arg16 : FVec F S64x3 .f32) (main_arg17 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x3 : Shape := ⟨2, ![100000, 3]⟩
abbrev S3200000 : Shape := ⟨1, ![3200000]⟩
abbrev S3x64 : Shape := ⟨2, ![3, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S100000 : Shape := ⟨1, ![100000]⟩
abbrev S3200000x1 : Shape := ⟨2, ![3200000, 1]⟩
abbrev S3200000x3 : Shape := ⟨2, ![3200000, 3]⟩
abbrev S100000x1 : Shape := ⟨2, ![100000, 1]⟩
abbrev S100000x64 : Shape := ⟨2, ![100000, 64]⟩
abbrev S10000x3 : Shape := ⟨2, ![10000, 3]⟩
abbrev S10000x64 : Shape := ⟨2, ![10000, 64]⟩
abbrev S1x64 : Shape := ⟨2, ![1, 64]⟩
abbrev S3200000x64 : Shape := ⟨2, ![3200000, 64]⟩
abbrev S1x3 : Shape := ⟨2, ![1, 3]⟩

abbrev nBuf : Space → Nat
  | .hbm => 115
  | .vmem => 45
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S3x64, .f32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x3, .f32⟩
  | .hbm, ⟨16, _⟩ => ⟨S64x3, .f32⟩
  | .hbm, ⟨17, _⟩ => ⟨S3, .f32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x3, .f32⟩
  | .hbm, ⟨39, _⟩ => ⟨S_, .f32⟩
  | .hbm, ⟨40, _⟩ => ⟨S100000x3, .f32⟩
  | .hbm, ⟨41, _⟩ => ⟨S3200000x1, .i32⟩
  | .hbm, ⟨42, _⟩ => ⟨S100000x3, .f32⟩
  | .hbm, ⟨43, _⟩ => ⟨S100000x1, .f32⟩
  | .hbm, ⟨44, _⟩ => ⟨S100000x3, .f32⟩
  | .hbm, ⟨45, _⟩ => ⟨S100000x3, .f32⟩
  | .hbm, ⟨46, _⟩ => ⟨S100000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S_, .f32⟩
  | .hbm, ⟨57, _⟩ => ⟨S100000x64, .f32⟩
  | .hbm, ⟨58, _⟩ => ⟨S3200000x1, .i32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x64, .f32⟩
  | .hbm, ⟨73, _⟩ => ⟨S_, .f32⟩
  | .hbm, ⟨74, _⟩ => ⟨S100000x64, .f32⟩
  | .hbm, ⟨75, _⟩ => ⟨S3200000x1, .i32⟩
  | .hbm, ⟨76, _⟩ => ⟨S100000x64, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x64, .f32⟩
  | .hbm, ⟨90, _⟩ => ⟨S_, .f32⟩
  | .hbm, ⟨91, _⟩ => ⟨S100000x64, .f32⟩
  | .hbm, ⟨92, _⟩ => ⟨S3200000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S3200000x64, .f32⟩
  | .hbm, ⟨107, _⟩ => ⟨S_, .f32⟩
  | .hbm, ⟨108, _⟩ => ⟨S100000x64, .f32⟩
  | .hbm, ⟨109, _⟩ => ⟨S3200000x1, .i32⟩
  | .hbm, ⟨110, _⟩ => ⟨S100000x64, .f32⟩
  | .hbm, ⟨111, _⟩ => ⟨S100000x1, .f32⟩
  | .hbm, ⟨112, _⟩ => ⟨S100000x64, .f32⟩
  | .hbm, ⟨113, _⟩ => ⟨S100000x64, .f32⟩
  | .hbm, ⟨114, _⟩ => ⟨S100000x3, .f32⟩
  | .local _ .vmem, ⟨0, _⟩ => ⟨S10000x3, .f32⟩
  | .local _ .vmem, ⟨1, _⟩ => ⟨S10000x3, .f32⟩
  | .local _ .vmem, ⟨2, _⟩ => ⟨S10000x3, .f32⟩
  | .local _ .vmem, ⟨3, _⟩ => ⟨S10000x3, .f32⟩
  | .local _ .vmem, ⟨4, _⟩ => ⟨S3x64, .f32⟩
  | .local _ .vmem, ⟨5, _⟩ => ⟨S3x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S64x64, .f32⟩
  | .local _ .vmem, ⟨33, _⟩ => ⟨S64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x3, .f32⟩
  | .local _ .vmem, ⟨41, _⟩ => ⟨S64x3, .f32⟩
  | .local _ .vmem, ⟨42, _⟩ => ⟨S3, .f32⟩
  | .local _ .vmem, ⟨43, _⟩ => ⟨S10000x3, .f32⟩
  | .local _ .vmem, ⟨44, _⟩ => ⟨S10000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_cst_2 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x3 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x3 : S_.BroadcastsInDim S100000x3 (![] : Fin 0 → Fin S100000x3.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  shapeCasts_S10000x3_S10000x3 : S10000x3.ShapeCasts S10000x3
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  scatter_S100000_S3200000x1_S3200000_n_0_0_1_wf : ScatterDims.WF S100000 S3200000x1 S3200000 [] [0] [0] 1
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S10000x3_S3x64_S10000x64_1_0_0_1_n_n_wf : DotDims.WF S10000x3 S3x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S100000x3.size a
  hwx0_1 : ∀ i : grid0.Coords, EltTy.bits .f32 = 32 ∨ (Rect.block (s := S100000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x3.size a ≤ S64x3.size a
  hwx4_2 : ∀ i : grid4.Coords, EltTy.bits .f32 = 32 ∨ (Rect.block (s := S64x3) S64x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x3.size a ≤ S64x3.size a
  hwx4_3 : ∀ i : grid4.Coords, EltTy.bits .f32 = 32 ∨ (Rect.block (s := S64x3) S64x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3.size a ≤ S3.size a
  hwx4_4 : ∀ i : grid4.Coords, EltTy.bits .f32 = 32 ∨ (Rect.block (s := S3) S3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x3.size a ≤ S100000x3.size a
  hwx4_5 : ∀ i : grid4.Coords, EltTy.bits .f32 = 32 ∨ (Rect.block (s := S100000x3) S10000x3.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S64x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S10000x3.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x3 : Shape := ⟨2, ![100000, 3]⟩
abbrev S3200000 : Shape := ⟨1, ![3200000]⟩
abbrev S3x64 : Shape := ⟨2, ![3, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩
abbrev S100000 : Shape := ⟨1, ![100000]⟩
abbrev S3200000x1 : Shape := ⟨2, ![3200000, 1]⟩
abbrev S3200000x3 : Shape := ⟨2, ![3200000, 3]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S1x3 : Shape := ⟨2, ![1, 3]⟩

abbrev nBuf : Space → Nat
  | .hbm => 172
  | .vmem => 0
  | .smem => 0
  | _ => 0

abbrev hbmTy0_0 (i : Nat) : BufTy := match i % 128 with
  | 0 => ⟨S100000x3, .f32⟩
  | 1 => ⟨S3200000, .i32⟩
  | 2 => ⟨S3200000, .i32⟩
  | 3 => ⟨S3x64, .f32⟩
  | 4 => ⟨S3x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x3, .f32⟩
  | 16 => ⟨S64x3, .f32⟩
  | 17 => ⟨S3, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x3, .f32⟩
  | 39 => ⟨S_, .f32⟩
  | 40 => ⟨S100000x3, .f32⟩
  | 41 => ⟨S3200000x1, .i32⟩
  | 42 => ⟨S100000x3, .f32⟩
  | 43 => ⟨S100000x1, .f32⟩
  | 44 => ⟨S100000x3, .f32⟩
  | 45 => ⟨S100000x3, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S_, .f32⟩
  | 54 => ⟨S100000x64, .f32⟩
  | 55 => ⟨S100000x64, .i1⟩
  | 56 => ⟨S_, .f32⟩
  | 57 => ⟨S100000x64, .f32⟩
  | 58 => ⟨S100000x64, .f32⟩
  | 59 => ⟨S100000x64, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x64, .f32⟩
  | 69 => ⟨S_, .f32⟩
  | 70 => ⟨S100000x64, .f32⟩
  | 71 => ⟨S3200000x1, .i32⟩
  | 72 => ⟨S100000x64, .f32⟩
  | 73 => ⟨S100000x1, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S_, .f32⟩
  | 84 => ⟨S100000x64, .f32⟩
  | 85 => ⟨S100000x64, .i1⟩
  | 86 => ⟨S_, .f32⟩
  | 87 => ⟨S100000x64, .f32⟩
  | 88 => ⟨S100000x64, .f32⟩
  | 89 => ⟨S100000x64, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x64, .f32⟩
  | 99 => ⟨S_, .f32⟩
  | 100 => ⟨S100000x64, .f32⟩
  | 101 => ⟨S3200000x1, .i32⟩
  | 102 => ⟨S100000x64, .f32⟩
  | 103 => ⟨S100000x1, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S_, .f32⟩
  | 114 => ⟨S100000x64, .f32⟩
  | 115 => ⟨S100000x64, .i1⟩
  | 116 => ⟨S_, .f32⟩
  | 117 => ⟨S100000x64, .f32⟩
  | 118 => ⟨S100000x64, .f32⟩
  | 119 => ⟨S100000x64, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x3, .f32⟩

abbrev hbmTy0_1 (i : Nat) : BufTy := match i % 128 with
  | 0 => ⟨S3200000x64, .f32⟩
  | 1 => ⟨S_, .f32⟩
  | 2 => ⟨S100000x64, .f32⟩
  | 3 => ⟨S3200000x1, .i32⟩
  | 4 => ⟨S100000x64, .f32⟩
  | 5 => ⟨S100000x1, .f32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S_, .f32⟩
  | 16 => ⟨S100000x64, .f32⟩
  | 17 => ⟨S100000x64, .i1⟩
  | 18 => ⟨S_, .f32⟩
  | 19 => ⟨S100000x64, .f32⟩
  | 20 => ⟨S100000x64, .f32⟩
  | 21 => ⟨S100000x64, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x64, .f32⟩
  | 31 => ⟨S_, .f32⟩
  | 32 => ⟨S100000x64, .f32⟩
  | 33 => ⟨S3200000x1, .i32⟩
  | 34 => ⟨S100000x64, .f32⟩
  | 35 => ⟨S100000x1, .f32⟩
  | 36 => ⟨S100000x64, .f32⟩
  | 37 => ⟨S100000x64, .f32⟩
  | 38 => ⟨S100000x3, .f32⟩
  | 39 => ⟨S100000x3, .f32⟩
  | 40 => ⟨S100000x3, .f32⟩
  | 41 => ⟨S1x3, .f32⟩
  | 42 => ⟨S100000x3, .f32⟩
  | 43 => ⟨S100000x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_cst_2 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v47 : Ref sig .tc := ⟨.hbm, 89, rfl⟩
abbrev main_c_10 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_13 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v67 : Ref sig .tc := ⟨.hbm, 119, rfl⟩
abbrev main_c_14 : Ref sig .tc := ⟨.hbm, 120, rfl⟩
abbrev main_v68 : Ref sig .tc := ⟨.hbm, 121, rfl⟩
abbrev main_v69 : Ref sig .tc := ⟨.hbm, 122, rfl⟩
abbrev main_c_15 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_16 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_17 : Ref sig .tc := ⟨.hbm, 142, rfl⟩
abbrev main_call3_cst : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_v87 : Ref sig .tc := ⟨.hbm, 149, rfl⟩
abbrev main_c_18 : Ref sig .tc := ⟨.hbm, 150, rfl⟩
abbrev main_v88 : Ref sig .tc := ⟨.hbm, 151, rfl⟩
abbrev main_v89 : Ref sig .tc := ⟨.hbm, 152, rfl⟩
abbrev main_c_19 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_20 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x3 : S_.BroadcastsInDim S100000x3 (![] : Fin 0 → Fin S100000x3.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S3200000x1_S3200000_n_0_0_1_wf : ScatterDims.WF S100000 S3200000x1 S3200000 [] [0] [0] 1
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S100000x3_S3x64_S100000x64_1_0_0_1_n_n_wf : DotDims.WF S100000x3 S3x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KRun.lean ====
/-
  The kernel program's run with its result named.

  The program is five regions among stretches of host operations; the contents of the core's buffers at the ten
  boundaries between them form a fold from the launch memory: a stretch applies its operations, a region replaces its
  output table by what its ten write-backs leave and keeps every other buffer. Every weakly fair execution terminates
  without a fault in a state whose unscoped buffers hold the last fold's contents; read at the result buffer and at
  the eighteen argument buffers this gives the result as the fold's value and the arguments as launched (no stretch
  and no region writes an argument).
-/
import proofs.«144254_j14224931685026_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_main : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.KValue

end
-- ==== Proof.Spec.lean ====
/-
  What both programs compute, as ONE function of the eighteen argument arrays: five rounds of mean aggregation over a
  directed graph on 100000 nodes with 3200000 edges (src e → dst e).

  Let d(v) be the number of edges that end at node v and w(v) = 1 / max(d(v), 1). A round sends a feature table x
  (one row per node) to
        y = x · Ws + (w ⊙ A x) · Wn + b,        (A x)(v) = Σ over the edges e with dst e = v of the row x[src e],
  a source position below zero being counted from the end of the table; the first four rounds are followed by the
  leaky rectifier  y ↦ y if y ≥ 0, else 0.01 · y  (0.01 as the f32 word 0x3C23D70A), the fifth is not.

  Every piece is written with the host operations of the reference program: a gather of rows, a scatter-sum, the
  product of whole tables. The aggregation pieces (`dinv`, `srcCol`, `col`, `agg3`, `agg64`) are common to the two
  programs. The programs differ in the affine map and in the rectifier (`lin0`, `linM`, `linL`, `lrelu`): the
  reference multiplies whole tables where the kernel multiplies blocks of 10000 rows, and the kernel tests y > 0 where
  the reference tests y ≥ 0 — the two tests differ only at y = 0, where either branch gives 0.
-/
import proofs.«144254_j14224931685026_1_alg».proof.ReferenceIdeal

noncomputable section

namespace Cert.Sage

open Idealize.ShloMosaic Cert.ReferenceIdeal Cert.ReferenceIdeal.Facts₀

variable {F : FTy → Type} [FloatOps F] [Cert.ReferenceIdeal.Facts]

/-- A table of f32 entries of shape `s`, and one of i32 entries, as the host operations take them. -/
abbrev Fl (F : FTy → Type) [FloatOps F] (s : Shape) : Type := (⟨s, .f32⟩ : BufTy).Contents (Elt F)
abbrev I32 (F : FTy → Type) [FloatOps F] (s : Shape) : Type := (⟨s, .i32⟩ : BufTy).Contents (Elt F)

/-- An edge list (one node per edge) as a column of scatter or gather positions. -/
def col (e : I32 F S3200000) : I32 F S3200000x1 :=
  broadcastInDim S3200000x1 ![0] bcast_S3200000_S3200000x1_0 e

/-- The source positions as a column, a position below zero counted from the end of the table. -/
def srcCol (src : I32 F S3200000) : I32 F S3200000x1 :=
  col (select (cmpi .slt src (broadcastInDim S3200000 ![] bcast_S_S3200000 (constantI S_ 32 0#32)))
    (addi src (broadcastInDim S3200000 ![] bcast_S_S3200000 (constantI S_ 32 100000#32))) src)

/-- w(v) = 1 / max(d(v), 1): the in-degree d is the scatter-sum of a one per edge onto the edge's end node. -/
def dinv (dst : I32 F S3200000) : Fl F S100000 :=
  Host.divf (broadcastInDim S100000 ![] bcast_S_S100000 (constant S_ .f32 0x3F800000#32))
    (maximumf
      (Host.scatterAdd scatter_S100000_S3200000x1_S3200000_n_0_0_1
        (broadcastInDim S100000 ![] bcast_S_S100000 (constant S_ .f32 0x00000000#32)) (col dst)
        (broadcastInDim S3200000 ![] bcast_S_S3200000 (constant S_ .f32 0x3F800000#32)))
      (broadcastInDim S100000 ![] bcast_S_S100000 (constant S_ .f32 0x3F800000#32)))

/-- The mean of the rows at the sources of the edges ending at each node, for a table of 3 columns: w ⊙ A x. -/
def agg3 (x : Fl F S100000x3) (src dst : I32 F S3200000) (w : Fl F S100000) : Fl F S100000x3 :=
  mulf
    (Host.scatterAdd scatter_S100000x3_S3200000x1_S3200000x3_1_0_0_1
      (broadcastInDim S100000x3 ![] bcast_S_S100000x3 (constant S_ .f32 0x00000000#32)) (col dst)
      (Host.gather gather_S100000x3_S3200000x1_S3200000x3_1_0_n_n_0_1_13 x (srcCol src)))
    (broadcastInDim S100000x3 ![0, 1] bcast_S100000x1_S100000x3_0_1
      (broadcastInDim S100000x1 ![0] bcast_S100000_S100000x1_0 w))

/-- The same for a table of 64 columns. -/
def agg64 (x : Fl F S100000x64) (src dst : I32 F S3200000) (w : Fl F S100000) : Fl F S100000x64 :=
  mulf
    (Host.scatterAdd scatter_S100000x64_S3200000x1_S3200000x64_1_0_0_1
      (broadcastInDim S100000x64 ![] bcast_S_S100000x64 (constant S_ .f32 0x00000000#32)) (col dst)
      (Host.gather gather_S100000x64_S3200000x1_S3200000x64_1_0_n_n_0_1_164 x (srcCol src)))
    (broadcastInDim S100000x64 ![0, 1] bcast_S100000x1_S100000x64_0_1
      (broadcastInDim S100000x1 ![0] bcast_S100000_S100000x1_0 w))

/-- The leaky rectifier, entry by entry: y where y ≥ 0, else 0.01 · y. -/
def lrelu (y : Fl F S100000x64) : Fl F S100000x64 :=
  select (cmpf .oge y (broadcastInDim S100000x64 ![] bcast_S_S100000x64 (constant S_ .f32 0x00000000#32))) y
    (mulf (broadcastInDim S100000x64 ![] bcast_S_S100000x64 (constant S_ .f32 0x3C23D70A#32)) y)

/-- x · Ws + a · Wn + b for 3 columns in, 64 out; b is laid along every row. -/
def lin0 (x a : Fl F S100000x3) (Ws Wn : Fl F S3x64) (b : Fl F S64) : Fl F S100000x64 :=
  addf
    (addf (Host.dotGeneral dot_S100000x3_S3x64_S100000x64_1_0_0_1_n_n none x Ws)
      (Host.dotGeneral dot_S100000x3_S3x64_S100000x64_1_0_0_1_n_n none a Wn))
    (broadcastInDim S100000x64 ![0, 1] bcast_S1x64_S100000x64_0_1 (broadcastInDim S1x64 ![1] bcast_S64_S1x64_1 b))

/-- x · Ws + a · Wn + b for 64 columns in, 64 out. -/
def linM (x a : Fl F S100000x64) (Ws Wn : Fl F S64x64) (b : Fl F S64) : Fl F S100000x64 :=
  addf
    (addf (Host.dotGeneral dot_S100000x64_S64x64_S100000x64_1_0_0_1_n_n none x Ws)
      (Host.dotGeneral dot_S100000x64_S64x64_S100000x64_1_0_0_1_n_n none a Wn))
    (broadcastInDim S100000x64 ![0, 1] bcast_S1x64_S100000x64_0_1 (broadcastInDim S1x64 ![1] bcast_S64_S1x64_1 b))

/-- x · Ws + a · Wn + b for 64 columns in, 3 out. -/
def linL (x a : Fl F S100000x64) (Ws Wn : Fl F S64x3) (b : Fl F S3) : Fl F S100000x3 :=
  addf
    (addf (Host.dotGeneral dot_S100000x64_S64x3_S100000x3_1_0_0_1_n_n none x Ws)
      (Host.dotGeneral dot_S100000x64_S64x3_S100000x3_1_0_0_1_n_n none a Wn))
    (broadcastInDim S100000x3 ![0, 1] bcast_S1x3_S100000x3_0_1 (broadcastInDim S1x3 ![1] bcast_S3_S1x3_1 b))

/-- The first round: 3 columns to 64, rectified. -/
def round0 (x : Fl F S100000x3) (src dst : I32 F S3200000) (Ws Wn : Fl F S3x64) (b : Fl F S64) : Fl F S100000x64 :=
  lrelu (lin0 x (agg3 x src dst (dinv dst)) Ws Wn b)

/-- A middle round: 64 columns to 64, rectified. -/
def roundM (x : Fl F S100000x64) (src dst : I32 F S3200000) (Ws Wn : Fl F S64x64) (b : Fl F S64) : Fl F S100000x64 :=
  lrelu (linM x (agg64 x src dst (dinv dst)) Ws Wn b)

/-- The last round: 64 columns to 3, not rectified. -/
def roundL (x : Fl F S100000x64) (src dst : I32 F S3200000) (Ws Wn : Fl F S64x3) (b : Fl F S3) : Fl F S100000x3 :=
  linL x (agg64 x src dst (dinv dst)) Ws Wn b

/-- The five rounds. -/
def out (f : Fl F S100000x3) (src dst : I32 F S3200000)
    (Ws1 Wn1 : Fl F S3x64) (b1 : Fl F S64) (Ws2 Wn2 : Fl F S64x64) (b2 : Fl F S64) (Ws3 Wn3 : Fl F S64x64) (b3 : Fl F S64)
    (Ws4 Wn4 : Fl F S64x64) (b4 : Fl F S64) (Ws5 Wn5 : Fl F S64x3) (b5 : Fl F S3) : Fl F S100000x3 :=
  roundL (roundM (roundM (roundM (round0 f src dst Ws1 Wn1 b1) src dst Ws2 Wn2 b2) src dst Ws3 Wn3 b3) src dst Ws4 Wn4 b4)
    src dst Ws5 Wn5 b5

end Cert.Sage

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.Entry.lean ====
/-
  One entry of a round, in both programs.

  Write  L(i, j) = Σ_k x(i, k) · Ws(k, j) + Σ_k a(i, k) · Wn(k, j) + b(j)  for row i of the tables x and a (k runs over
  the input columns). The reference computes the whole table L by two products of whole tables and a row laid along
  the rows, and rectifies with the test L ≥ 0. The kernel is handed the blocks of 10000 rows: row r of a block is some
  row i of the table, and the kernel computes the same L(i, j) from the block — its products accumulate into zero,
  0 + s = s, and its roundings of the operands to bf16 are the identity on the extended reals — and rectifies with the
  test L > 0.  The two rectifiers agree: they can differ only at L = 0, where  0 · c = 0 = c · 0.
  None of this needs the entries to be finite: only  0 + s = s,  0 · c = 0  and the commutativity of the product are used.
-/
import proofs.«144254_j14224931685026_1_alg».proof.Proof.Gen.KernelIdeal
import proofs.«144254_j14224931685026_1_alg».proof.Proof.Gen.KernelIdeal.Skeleton
import proofs.«144254_j14224931685026_1_alg».proof.Proof.Gen.ReferenceIdeal
import proofs.«144254_j14224931685026_1_alg».proof.Proof.Spec
import proofs.«144254_j14224931685026_1_alg».proof.Proof.LibDot

noncomputable section

open scoped BigOperators

namespace Cert.Sage.Entry

open Idealize.ShloMosaic Idealize.ShloMosaic.ValueIdx Cert.Sage.LibDot

/-- The two rectifiers agree on every extended real: above zero both keep y, below zero both scale it, and at zero
    the kernel's scaled branch is 0 · c = 0, which is y. -/
theorem rect_eq (c y : EReal) :
    Scalar.select (Ideal.cmp .ogt y 0) y (y * c) = Scalar.select (Ideal.cmp .oge y 0) y (c * y) := by
  unfold Scalar.select Ideal.cmp
  by_cases h : (0 : EReal) < y
  · have h' : (0 : EReal) ≤ y := le_of_lt h
    simp [h, h']
  · by_cases h0 : (0 : EReal) ≤ y
    · have e : y = 0 := le_antisymm (not_lt.mp h) h0
      subst e; simp
    · simp [h, h0, mul_comm]

/-- The same with the two zeros and the two slopes in whatever spelling they arrive (`hz`, `hz'`: each zero is 0;
    `hc`: one slope). -/
theorem rect_eq' (c y z z' c' : EReal) (hz : z = 0) (hz' : z' = 0) (hc : c' = c) :
    Scalar.select (Ideal.cmp .ogt y z) y (y * c) = Scalar.select (Ideal.cmp .oge y z') y (c' * y) := by
  subst hz hz' hc; exact rect_eq _ _

/-- The coordinate facts of a plain product's record, by computing its dimension lists. -/
local macro "plain_dot" rec:ident sl:ident sr:ident : term =>
  `(sum_plain $rec rfl rfl
    (fun i q => by
      unfold DotDims.lhsIdx
      rw [dif_neg (show ¬(0 : Fin (Shape.rank $sl)) ∈ DotDims.lhsBatch $rec by decide),
        dif_pos (show (0 : Fin (Shape.rank $sl)) ∈ DotDims.lhsNonContracting $rec by decide)]
      rfl)
    (fun i q => DotDims.lhsIdx_val_of_single $rec rfl i q)
    (fun i q => DotDims.rhsIdx_val_of_single $rec rfl i q)
    (fun i q => by
      unfold DotDims.rhsIdx
      rw [dif_neg (show ¬(1 : Fin (Shape.rank $sr)) ∈ DotDims.rhsBatch $rec by decide),
        dif_pos (show (1 : Fin (Shape.rank $sr)) ∈ DotDims.rhsNonContracting $rec by decide)]
      rfl))

/-! ## A middle round: 64 columns to 64 -/

section Middle
open Cert.KernelIdeal in
/-- The kernel's product of a block with a weight table, into zero: entry (r, j) is the plain sum. -/
theorem kM_mm (L : FVec Ideal Cert.KernelIdeal.S10000x64 .bf16) (R : FVec Ideal Cert.KernelIdeal.S64x64 .bf16) (r : Fin 10000) (j : Fin 64) :
    matmul Cert.KernelIdeal.dot_S10000x64_S64x64_S10000x64_1_0_0_1_n_n none L R (constant Cert.KernelIdeal.S10000x64 .f32 0x00000000#32) (ix2 r j)
      = ∑ k : Fin 64, L (ix2 r k) * R (ix2 k j) := by
  show FloatOps.matmul _ _ _ _ _ _ = _
  rw [Ideal.matmul_constant_zero_apply]
  exact (plain_dot dot_S10000x64_S64x64_S10000x64_1_0_0_1_n_n S10000x64 S64x64) L R r j

open Cert.ReferenceIdeal in
/-- The reference's product of a whole table with a weight table: entry (i, j) is the plain sum. -/
theorem rM_mm (L : FVec Ideal Cert.ReferenceIdeal.S100000x64 .f32) (R : FVec Ideal Cert.ReferenceIdeal.S64x64 .f32) (i : Fin 100000) (j : Fin 64) :
    Host.dotGeneral Cert.ReferenceIdeal.dot_S100000x64_S64x64_S100000x64_1_0_0_1_n_n none L R (ix2 i j)
      = ∑ k : Fin 64, L (ix2 i k) * R (ix2 k j) := by
  show FloatOps.dotGeneral _ _ _ _ _ _ = _
  rw [Ideal.dotGeneral_apply]
  exact (plain_dot dot_S100000x64_S64x64_S100000x64_1_0_0_1_n_n S100000x64 S64x64) L R i j

/-- Row r of the blocks being row i of the tables, the kernel's entry (r, j) of a middle round is the reference's
    entry (i, j). -/
theorem middle (x a : Fl Ideal Cert.ReferenceIdeal.S100000x64) (Ws Wn : Fl Ideal Cert.ReferenceIdeal.S64x64)
    (b : Fl Ideal Cert.ReferenceIdeal.S64) (X0 X1 : Vec Ideal Cert.KernelIdeal.S10000x64 .f32) (i : Fin 100000) (r : Fin 10000)
    (h0 : ∀ k : Fin 64, X0 (ix2 r k) = x (ix2 i k)) (h1 : ∀ k : Fin 64, X1 (ix2 r k) = a (ix2 i k)) (j : Fin 64) :
    Cert.KernelIdeal.Gen.k1_pay1 X0 X1 Ws Wn b (ix2 r j) = lrelu (linM x a Ws Wn b) (ix2 i j) := by
  unfold Cert.KernelIdeal.Gen.k1_pay1 lrelu linM
  simp only [select_apply, cmpf_apply, mulf_apply, addf_apply, broadcast_apply]
  rw [kM_mm, kM_mm, row_cast_apply, rM_mm, rM_mm, row_dims_apply]
  simp only [truncf_apply, shapeCast_self, h0, h1]
  exact rect_eq' _ _ _ _ _ Ideal.ofBits_zero_f32 Ideal.ofBits_zero_f32 rfl

end Middle

/-! ## The first round: 3 columns to 64 -/

section First
open Cert.KernelIdeal in
theorem kF_mm (L : FVec Ideal Cert.KernelIdeal.S10000x3 .bf16) (R : FVec Ideal Cert.KernelIdeal.S3x64 .bf16) (r : Fin 10000) (j : Fin 64) :
    matmul Cert.KernelIdeal.dot_S10000x3_S3x64_S10000x64_1_0_0_1_n_n none L R (constant Cert.KernelIdeal.S10000x64 .f32 0x00000000#32) (ix2 r j)
      = ∑ k : Fin 3, L (ix2 r k) * R (ix2 k j) := by
  show FloatOps.matmul _ _ _ _ _ _ = _
  rw [Ideal.matmul_constant_zero_apply]
  exact (plain_dot dot_S10000x3_S3x64_S10000x64_1_0_0_1_n_n S10000x3 S3x64) L R r j

open Cert.ReferenceIdeal in
theorem rF_mm (L : FVec Ideal Cert.ReferenceIdeal.S100000x3 .f32) (R : FVec Ideal Cert.ReferenceIdeal.S3x64 .f32) (i : Fin 100000) (j : Fin 64) :
    Host.dotGeneral Cert.ReferenceIdeal.dot_S100000x3_S3x64_S100000x64_1_0_0_1_n_n none L R (ix2 i j)
      = ∑ k : Fin 3, L (ix2 i k) * R (ix2 k j) := by
  show FloatOps.dotGeneral _ _ _ _ _ _ = _
  rw [Ideal.dotGeneral_apply]
  exact (plain_dot dot_S100000x3_S3x64_S100000x64_1_0_0_1_n_n S100000x3 S3x64) L R i j

/-- Row r of the blocks being row i of the tables, the kernel's entry (r, j) of the first round is the reference's
    entry (i, j). -/
theorem first (x a : Fl Ideal Cert.ReferenceIdeal.S100000x3) (Ws Wn : Fl Ideal Cert.ReferenceIdeal.S3x64)
    (b : Fl Ideal Cert.ReferenceIdeal.S64) (X0 X1 : Vec Ideal Cert.KernelIdeal.S10000x3 .f32) (i : Fin 100000) (r : Fin 10000)
    (h0 : ∀ k : Fin 3, X0 (ix2 r k) = x (ix2 i k)) (h1 : ∀ k : Fin 3, X1 (ix2 r k) = a (ix2 i k)) (j : Fin 64) :
    Cert.KernelIdeal.Gen.k0_pay1 X0 X1 Ws Wn b (ix2 r j) = lrelu (lin0 x a Ws Wn b) (ix2 i j) := by
  unfold Cert.KernelIdeal.Gen.k0_pay1 lrelu lin0
  simp only [select_apply, cmpf_apply, mulf_apply, addf_apply, broadcast_apply]
  rw [kF_mm, kF_mm, row_cast_apply, rF_mm, rF_mm, row_dims_apply]
  simp only [truncf_apply, shapeCast_self, h0, h1]
  exact rect_eq' _ _ _ _ _ Ideal.ofBits_zero_f32 Ideal.ofBits_zero_f32 rfl

end First

/-! ## The last round: 64 columns to 3, not rectified -/

section Last
open Cert.KernelIdeal in
theorem kL_mm (L : FVec Ideal Cert.KernelIdeal.S10000x64 .bf16) (R : FVec Ideal Cert.KernelIdeal.S64x3 .bf16) (r : Fin 10000) (j : Fin 3) :
    matmul Cert.KernelIdeal.dot_S10000x64_S64x3_S10000x3_1_0_0_1_n_n none L R (constant Cert.KernelIdeal.S10000x3 .f32 0x00000000#32) (ix2 r j)
      = ∑ k : Fin 64, L (ix2 r k) * R (ix2 k j) := by
  show FloatOps.matmul _ _ _ _ _ _ = _
  rw [Ideal.matmul_constant_zero_apply]
  exact (plain_dot dot_S10000x64_S64x3_S10000x3_1_0_0_1_n_n S10000x64 S64x3) L R r j

open Cert.ReferenceIdeal in
theorem rL_mm (L : FVec Ideal Cert.ReferenceIdeal.S100000x64 .f32) (R : FVec Ideal Cert.ReferenceIdeal.S64x3 .f32) (i : Fin 100000) (j : Fin 3) :
    Host.dotGeneral Cert.ReferenceIdeal.dot_S100000x64_S64x3_S100000x3_1_0_0_1_n_n none L R (ix2 i j)
      = ∑ k : Fin 64, L (ix2 i k) * R (ix2 k j) := by
  show FloatOps.dotGeneral _ _ _ _ _ _ = _
  rw [Ideal.dotGeneral_apply]
  exact (plain_dot dot_S100000x64_S64x3_S100000x3_1_0_0_1_n_n S100000x64 S64x3) L R i j

/-- Row r of the blocks being row i of the tables, the kernel's entry (r, j) of the last round is the reference's
    entry (i, j). -/
theorem last (x a : Fl Ideal Cert.ReferenceIdeal.S100000x64) (Ws Wn : Fl Ideal Cert.ReferenceIdeal.S64x3)
    (b : Fl Ideal Cert.ReferenceIdeal.S3) (X0 X1 : Vec Ideal Cert.KernelIdeal.S10000x64 .f32) (i : Fin 100000) (r : Fin 10000)
    (h0 : ∀ k : Fin 64, X0 (ix2 r k) = x (ix2 i k)) (h1 : ∀ k : Fin 64, X1 (ix2 r k) = a (ix2 i k)) (j : Fin 3) :
    Cert.KernelIdeal.Gen.k4_pay1 X0 X1 Ws Wn b (ix2 r j) = linL x a Ws Wn b (ix2 i j) := by
  unfold Cert.KernelIdeal.Gen.k4_pay1 linL
  simp only [addf_apply]
  rw [kL_mm, kL_mm, row_cast_apply, rL_mm, rL_mm, row_dims_apply]
  simp only [truncf_apply, shapeCast_self, h0, h1]

end Last

end Cert.Sage.Entry

end
-- ==== Proof.Round1.lean ====
/-
  Round 1 in the kernel: what the region leaves in its output table.

  The region walks ten grid points; point t is handed rows 10000·t … 10000·t + 9999 of the two tables (the features and
  their aggregate, 3 columns each), the whole of the two weight tables and of the bias, and writes rows 10000·t …
  10000·t + 9999 of the output (64 columns). Row r of a block is row 10000·t + r of its table, so by the entry lemma
  of the first round the block written at t is that block of  lrelu (lin0 x a Ws Wn b);  the ten blocks tile the 100000 rows (row i
  lies in block i / 10000), so the output table ends as that function of the tables the region found on entry, whatever
  those are.
-/
import proofs.«144254_j14224931685026_1_alg».proof.Proof.Gen.KernelIdeal.Frame
import proofs.«144254_j14224931685026_1_alg».proof.Proof.Entry

set_option maxRecDepth 16384

noncomputable section

namespace Cert.KernelIdeal.Round1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two table windows sit at the output's block on the row axis, every window at
    block 0 on the column axis, the weights and the bias at block 0, and the output's row block is at most 9. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 9 ∧ win0_5.index t (1 : Fin 2) = 0 :=
  (by decide +kernel : ∀ t : Fin grid0.N, _)

/-- Every one of the ten row blocks is some point's. -/
theorem idx_onto : ∀ q : Fin 10, ∃ t : Fin cfg0.N, win0_5.index t = ![q.val, 0] :=
  (by decide +kernel : ∀ q : Fin 10, ∃ t : Fin grid0.N, win0_5.index t = ![q.val, 0])

/-- The round's function of the tables the region finds on entry. -/
abbrev G (c : Dev nD) : Cert.Sage.Fl Ideal Cert.ReferenceIdeal.S100000x64 :=
  Cert.Sage.lrelu (Cert.Sage.lin0 (V c (Pipeline.arrRef spec0 0)) (V c (Pipeline.arrRef spec0 1)) (V c (Pipeline.arrRef spec0 2)) (V c (Pipeline.arrRef spec0 3)) (V c (Pipeline.arrRef spec0 4)))

/-- The weight and bias windows hold their whole tables at every point. -/
theorem blk2 (c : Dev nD) (t : Fin cfg0.N) : (iblk0 V c 2 t : S3x64.Idx → EReal) = V c (Pipeline.arrRef spec0 2) := by
  obtain ⟨-, -, -, -, e4, e5, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 3 + 1 * (y 0).val = (y 0).val; omega
  | ⟨1, _⟩ => show win0_2.index t (1 : Fin 2) * 64 + 1 * (y 1).val = (y 1).val; omega
theorem blk3 (c : Dev nD) (t : Fin cfg0.N) : (iblk0 V c 3 t : S3x64.Idx → EReal) = V c (Pipeline.arrRef spec0 3) := by
  obtain ⟨-, -, -, -, -, -, e6, e7, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 3 + 1 * (y 0).val = (y 0).val; omega
  | ⟨1, _⟩ => show win0_3.index t (1 : Fin 2) * 64 + 1 * (y 1).val = (y 1).val; omega
theorem blk4 (c : Dev nD) (t : Fin cfg0.N) : (iblk0 V c 4 t : S64.Idx → EReal) = V c (Pipeline.arrRef spec0 4) := by
  obtain ⟨-, -, -, -, -, -, -, -, e8, -⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 1) * 64 + 1 * (y 0).val = (y 0).val; omega

/-- Row r of the block a point is handed, or writes, is row 10000·(row block) + r of the table: the three windows that
    move with the point, entry by entry. -/
theorem emb_out (t : Fin cfg0.N) (r : Fin 10000) (j : Fin 64)
    (hi : win0_5.index t (0 : Fin 2) * 10000 + r.val < 100000) :
    ((cfg0.win 5).blk t).view.emb (ix2 r j) = ix2 (⟨win0_5.index t (0 : Fin 2) * 10000 + r.val, hi⟩ : Fin 100000) j := by
  obtain ⟨-, -, -, -, -, -, -, -, -, -, e10⟩ := idx_facts t
  funext a; apply Fin.ext
  match a with
  | ⟨0, _⟩ => show win0_5.index t (0 : Fin 2) * 10000 + 1 * r.val = win0_5.index t (0 : Fin 2) * 10000 + r.val; omega
  | ⟨1, _⟩ => show win0_5.index t (1 : Fin 2) * 64 + 1 * j.val = j.val; omega
theorem emb_in0 (t : Fin cfg0.N) (r : Fin 10000) (k : Fin 3)
    (hi : win0_5.index t (0 : Fin 2) * 10000 + r.val < 100000) :
    ((cfg0.win 0).blk t).view.emb (ix2 r k) = ix2 (⟨win0_5.index t (0 : Fin 2) * 10000 + r.val, hi⟩ : Fin 100000) k := by
  obtain ⟨e0, e1, -⟩ := idx_facts t
  funext a; apply Fin.ext
  match a with
  | ⟨0, _⟩ => show win0_0.index t (0 : Fin 2) * 10000 + 1 * r.val = win0_5.index t (0 : Fin 2) * 10000 + r.val; omega
  | ⟨1, _⟩ => show win0_0.index t (1 : Fin 2) * 3 + 1 * k.val = k.val; omega
theorem emb_in1 (t : Fin cfg0.N) (r : Fin 10000) (k : Fin 3)
    (hi : win0_5.index t (0 : Fin 2) * 10000 + r.val < 100000) :
    ((cfg0.win 1).blk t).view.emb (ix2 r k) = ix2 (⟨win0_5.index t (0 : Fin 2) * 10000 + r.val, hi⟩ : Fin 100000) k := by
  obtain ⟨-, -, e2, e3, -⟩ := idx_facts t
  funext a; apply Fin.ext
  match a with
  | ⟨0, _⟩ => show win0_1.index t (0 : Fin 2) * 10000 + 1 * r.val = win0_5.index t (0 : Fin 2) * 10000 + r.val; omega
  | ⟨1, _⟩ => show win0_1.index t (1 : Fin 2) * 3 + 1 * k.val = k.val; omega

set_option maxHeartbeats 1000000 in
/-- What point t writes back is block t of the round's function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S10000x3) hz2, View.ld_unit_zero (S := S3x64) hz2, View.ld_unit_zero (S := S64) hz1]
  rw [blk2 V c t, blk3 V c t, blk4 V c t]
  obtain ⟨-, -, -, -, -, -, -, -, -, e9, -⟩ := idx_facts t
  funext y
  obtain ⟨r, j, rfl⟩ : ∃ (r : Fin 10000) (j : Fin 64), y = ix2 r j := ⟨y 0, y 1, eq_ix2 y⟩
  have hr : r.val < 10000 := r.isLt
  have hi : win0_5.index t (0 : Fin 2) * 10000 + r.val < 100000 := by omega
  show k0_pay1 (iblk0 V c 0 t) (iblk0 V c 1 t) (V c (Pipeline.arrRef spec0 2)) (V c (Pipeline.arrRef spec0 3)) (V c (Pipeline.arrRef spec0 4)) (ix2 r j)
    = G V c (((cfg0.win 5).blk t).view.emb (ix2 r j))
  rw [emb_out t r j hi]
  refine Cert.Sage.Entry.first _ _ _ _ _ _ _ ⟨_, hi⟩ r (fun k => ?_) (fun k => ?_) j
  · show V c (Pipeline.arrRef spec0 0) (((cfg0.win 0).blk t).view.emb (ix2 r k)) = V c (Pipeline.arrRef spec0 0) (ix2 ⟨_, hi⟩ k)
    rw [emb_in0 t r k hi]
  · show V c (Pipeline.arrRef spec0 1) (((cfg0.win 1).blk t).view.emb (ix2 r k)) = V c (Pipeline.arrRef spec0 1) (ix2 ⟨_, hi⟩ k)
    rw [emb_in1 t r k hi]

/-- An index of the output table is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v21).slice (win0_5.rect t)).set ↔ _
  rw [View.set_slice_whole, Rect.mem_set_unit]
  exact Iff.rfl

/-- Every row of the output table is written: row i lies in the block of the point with row block i / 10000. -/
theorem cover (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output table after the region: the round's function of the tables found on entry. -/
theorem final (c : Dev nD) : (dat0 V c).arrAt 5 cfg0.N = G V c :=
  (dat0 V c).arrAt_eq_of_cover 5 (G V c) (fun t _ => flushed_eq V c t) cover

end Cert.KernelIdeal.Round1

end
-- ==== Proof.Round2.lean ====
/-
  Round 2 in the kernel: what the region leaves in its output table.

  The region walks ten grid points; point t is handed rows 10000·t … 10000·t + 9999 of the two tables (the features and
  their aggregate, 64 columns each), the whole of the two weight tables and of the bias, and writes rows 10000·t …
  10000·t + 9999 of the output (64 columns). Row r of a block is row 10000·t + r of its table, so by the entry lemma
  of a middle round the block written at t is that block of  lrelu (linM x a Ws Wn b);  the ten blocks tile the 100000 rows (row i
  lies in block i / 10000), so the output table ends as that function of the tables the region found on entry, whatever
  those are.
-/
import proofs.«144254_j14224931685026_1_alg».proof.Proof.Gen.KernelIdeal.Frame
import proofs.«144254_j14224931685026_1_alg».proof.Proof.Entry

set_option maxRecDepth 16384

noncomputable section

namespace Cert.KernelIdeal.Round2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two table windows sit at the output's block on the row axis, every window at
    block 0 on the column axis, the weights and the bias at block 0, and the output's row block is at most 9. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) ≤ 9 ∧ win1_5.index t (1 : Fin 2) = 0 :=
  (by decide +kernel : ∀ t : Fin grid1.N, _)

/-- Every one of the ten row blocks is some point's. -/
theorem idx_onto : ∀ q : Fin 10, ∃ t : Fin cfg1.N, win1_5.index t = ![q.val, 0] :=
  (by decide +kernel : ∀ q : Fin 10, ∃ t : Fin grid1.N, win1_5.index t = ![q.val, 0])

/-- The round's function of the tables the region finds on entry. -/
abbrev G (c : Dev nD) : Cert.Sage.Fl Ideal Cert.ReferenceIdeal.S100000x64 :=
  Cert.Sage.lrelu (Cert.Sage.linM (V c (Pipeline.arrRef spec1 0)) (V c (Pipeline.arrRef spec1 1)) (V c (Pipeline.arrRef spec1 2)) (V c (Pipeline.arrRef spec1 3)) (V c (Pipeline.arrRef spec1 4)))

/-- The weight and bias windows hold their whole tables at every point. -/
theorem blk2 (c : Dev nD) (t : Fin cfg1.N) : (iblk1 V c 2 t : S64x64.Idx → EReal) = V c (Pipeline.arrRef spec1 2) := by
  obtain ⟨-, -, -, -, e4, e5, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem blk3 (c : Dev nD) (t : Fin cfg1.N) : (iblk1 V c 3 t : S64x64.Idx → EReal) = V c (Pipeline.arrRef spec1 3) := by
  obtain ⟨-, -, -, -, -, -, e6, e7, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem blk4 (c : Dev nD) (t : Fin cfg1.N) : (iblk1 V c 4 t : S64.Idx → EReal) = V c (Pipeline.arrRef spec1 4) := by
  obtain ⟨-, -, -, -, -, -, -, -, e8, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 1) * 64 + 1 * (y 0).val = (y 0).val; omega

/-- Row r of the block a point is handed, or writes, is row 10000·(row block) + r of the table: the three windows that
    move with the point, entry by entry. -/
theorem emb_out (t : Fin cfg1.N) (r : Fin 10000) (j : Fin 64)
    (hi : win1_5.index t (0 : Fin 2) * 10000 + r.val < 100000) :
    ((cfg1.win 5).blk t).view.emb (ix2 r j) = ix2 (⟨win1_5.index t (0 : Fin 2) * 10000 + r.val, hi⟩ : Fin 100000) j := by
  obtain ⟨-, -, -, -, -, -, -, -, -, -, e10⟩ := idx_facts t
  funext a; apply Fin.ext
  match a with
  | ⟨0, _⟩ => show win1_5.index t (0 : Fin 2) * 10000 + 1 * r.val = win1_5.index t (0 : Fin 2) * 10000 + r.val; omega
  | ⟨1, _⟩ => show win1_5.index t (1 : Fin 2) * 64 + 1 * j.val = j.val; omega
theorem emb_in0 (t : Fin cfg1.N) (r : Fin 10000) (k : Fin 64)
    (hi : win1_5.index t (0 : Fin 2) * 10000 + r.val < 100000) :
    ((cfg1.win 0).blk t).view.emb (ix2 r k) = ix2 (⟨win1_5.index t (0 : Fin 2) * 10000 + r.val, hi⟩ : Fin 100000) k := by
  obtain ⟨e0, e1, -⟩ := idx_facts t
  funext a; apply Fin.ext
  match a with
  | ⟨0, _⟩ => show win1_0.index t (0 : Fin 2) * 10000 + 1 * r.val = win1_5.index t (0 : Fin 2) * 10000 + r.val; omega
  | ⟨1, _⟩ => show win1_0.index t (1 : Fin 2) * 64 + 1 * k.val = k.val; omega
theorem emb_in1 (t : Fin cfg1.N) (r : Fin 10000) (k : Fin 64)
    (hi : win1_5.index t (0 : Fin 2) * 10000 + r.val < 100000) :
    ((cfg1.win 1).blk t).view.emb (ix2 r k) = ix2 (⟨win1_5.index t (0 : Fin 2) * 10000 + r.val, hi⟩ : Fin 100000) k := by
  obtain ⟨-, -, e2, e3, -⟩ := idx_facts t
  funext a; apply Fin.ext
  match a with
  | ⟨0, _⟩ => show win1_1.index t (0 : Fin 2) * 10000 + 1 * r.val = win1_5.index t (0 : Fin 2) * 10000 + r.val; omega
  | ⟨1, _⟩ => show win1_1.index t (1 : Fin 2) * 64 + 1 * k.val = k.val; omega

set_option maxHeartbeats 1000000 in
/-- What point t writes back is block t of the round's function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  rw [blk2 V c t, blk3 V c t, blk4 V c t]
  obtain ⟨-, -, -, -, -, -, -, -, -, e9, -⟩ := idx_facts t
  funext y
  obtain ⟨r, j, rfl⟩ : ∃ (r : Fin 10000) (j : Fin 64), y = ix2 r j := ⟨y 0, y 1, eq_ix2 y⟩
  have hr : r.val < 10000 := r.isLt
  have hi : win1_5.index t (0 : Fin 2) * 10000 + r.val < 100000 := by omega
  show k1_pay1 (iblk1 V c 0 t) (iblk1 V c 1 t) (V c (Pipeline.arrRef spec1 2)) (V c (Pipeline.arrRef spec1 3)) (V c (Pipeline.arrRef spec1 4)) (ix2 r j)
    = G V c (((cfg1.win 5).blk t).view.emb (ix2 r j))
  rw [emb_out t r j hi]
  refine Cert.Sage.Entry.middle _ _ _ _ _ _ _ ⟨_, hi⟩ r (fun k => ?_) (fun k => ?_) j
  · show V c (Pipeline.arrRef spec1 0) (((cfg1.win 0).blk t).view.emb (ix2 r k)) = V c (Pipeline.arrRef spec1 0) (ix2 ⟨_, hi⟩ k)
    rw [emb_in0 t r k hi]
  · show V c (Pipeline.arrRef spec1 1) (((cfg1.win 1).blk t).view.emb (ix2 r k)) = V c (Pipeline.arrRef spec1 1) (ix2 ⟨_, hi⟩ k)
    rw [emb_in1 t r k hi]

/-- An index of the output table is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v35).slice (win1_5.rect t)).set ↔ _
  rw [View.set_slice_whole, Rect.mem_set_unit]
  exact Iff.rfl

/-- Every row of the output table is written: row i lies in the block of the point with row block i / 10000. -/
theorem cover (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output table after the region: the round's function of the tables found on entry. -/
theorem final (c : Dev nD) : (dat1 V c).arrAt 5 cfg1.N = G V c :=
  (dat1 V c).arrAt_eq_of_cover 5 (G V c) (fun t _ => flushed_eq V c t) cover

end Cert.KernelIdeal.Round2

end
-- ==== Proof.Round3.lean ====
/-
  Round 3 in the kernel: what the region leaves in its output table.

  The region walks ten grid points; point t is handed rows 10000·t … 10000·t + 9999 of the two tables (the features and
  their aggregate, 64 columns each), the whole of the two weight tables and of the bias, and writes rows 10000·t …
  10000·t + 9999 of the output (64 columns). Row r of a block is row 10000·t + r of its table, so by the entry lemma
  of a middle round the block written at t is that block of  lrelu (linM x a Ws Wn b);  the ten blocks tile the 100000 rows (row i
  lies in block i / 10000), so the output table ends as that function of the tables the region found on entry, whatever
  those are.
-/
import proofs.«144254_j14224931685026_1_alg».proof.Proof.Gen.KernelIdeal.Frame
import proofs.«144254_j14224931685026_1_alg».proof.Proof.Entry

set_option maxRecDepth 16384

noncomputable section

namespace Cert.KernelIdeal.Round3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two table windows sit at the output's block on the row axis, every window at
    block 0 on the column axis, the weights and the bias at block 0, and the output's row block is at most 9. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) ≤ 9 ∧ win2_5.index t (1 : Fin 2) = 0 :=
  (by decide +kernel : ∀ t : Fin grid2.N, _)

/-- Every one of the ten row blocks is some point's. -/
theorem idx_onto : ∀ q : Fin 10, ∃ t : Fin cfg2.N, win2_5.index t = ![q.val, 0] :=
  (by decide +kernel : ∀ q : Fin 10, ∃ t : Fin grid2.N, win2_5.index t = ![q.val, 0])

/-- The round's function of the tables the region finds on entry. -/
abbrev G (c : Dev nD) : Cert.Sage.Fl Ideal Cert.ReferenceIdeal.S100000x64 :=
  Cert.Sage.lrelu (Cert.Sage.linM (V c (Pipeline.arrRef spec2 0)) (V c (Pipeline.arrRef spec2 1)) (V c (Pipeline.arrRef spec2 2)) (V c (Pipeline.arrRef spec2 3)) (V c (Pipeline.arrRef spec2 4)))

/-- The weight and bias windows hold their whole tables at every point. -/
theorem blk2 (c : Dev nD) (t : Fin cfg2.N) : (iblk2 V c 2 t : S64x64.Idx → EReal) = V c (Pipeline.arrRef spec2 2) := by
  obtain ⟨-, -, -, -, e4, e5, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega
theorem blk3 (c : Dev nD) (t : Fin cfg2.N) : (iblk2 V c 3 t : S64x64.Idx → EReal) = V c (Pipeline.arrRef spec2 3) := by
  obtain ⟨-, -, -, -, -, -, e6, e7, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega
theorem blk4 (c : Dev nD) (t : Fin cfg2.N) : (iblk2 V c 4 t : S64.Idx → EReal) = V c (Pipeline.arrRef spec2 4) := by
  obtain ⟨-, -, -, -, -, -, -, -, e8, -⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 1) * 64 + 1 * (y 0).val = (y 0).val; omega

/-- Row r of the block a point is handed, or writes, is row 10000·(row block) + r of the table: the three windows that
    move with the point, entry by entry. -/
theorem emb_out (t : Fin cfg2.N) (r : Fin 10000) (j : Fin 64)
    (hi : win2_5.index t (0 : Fin 2) * 10000 + r.val < 100000) :
    ((cfg2.win 5).blk t).view.emb (ix2 r j) = ix2 (⟨win2_5.index t (0 : Fin 2) * 10000 + r.val, hi⟩ : Fin 100000) j := by
  obtain ⟨-, -, -, -, -, -, -, -, -, -, e10⟩ := idx_facts t
  funext a; apply Fin.ext
  match a with
  | ⟨0, _⟩ => show win2_5.index t (0 : Fin 2) * 10000 + 1 * r.val = win2_5.index t (0 : Fin 2) * 10000 + r.val; omega
  | ⟨1, _⟩ => show win2_5.index t (1 : Fin 2) * 64 + 1 * j.val = j.val; omega
theorem emb_in0 (t : Fin cfg2.N) (r : Fin 10000) (k : Fin 64)
    (hi : win2_5.index t (0 : Fin 2) * 10000 + r.val < 100000) :
    ((cfg2.win 0).blk t).view.emb (ix2 r k) = ix2 (⟨win2_5.index t (0 : Fin 2) * 10000 + r.val, hi⟩ : Fin 100000) k := by
  obtain ⟨e0, e1, -⟩ := idx_facts t
  funext a; apply Fin.ext
  match a with
  | ⟨0, _⟩ => show win2_0.index t (0 : Fin 2) * 10000 + 1 * r.val = win2_5.index t (0 : Fin 2) * 10000 + r.val; omega
  | ⟨1, _⟩ => show win2_0.index t (1 : Fin 2) * 64 + 1 * k.val = k.val; omega
theorem emb_in1 (t : Fin cfg2.N) (r : Fin 10000) (k : Fin 64)
    (hi : win2_5.index t (0 : Fin 2) * 10000 + r.val < 100000) :
    ((cfg2.win 1).blk t).view.emb (ix2 r k) = ix2 (⟨win2_5.index t (0 : Fin 2) * 10000 + r.val, hi⟩ : Fin 100000) k := by
  obtain ⟨-, -, e2, e3, -⟩ := idx_facts t
  funext a; apply Fin.ext
  match a with
  | ⟨0, _⟩ => show win2_1.index t (0 : Fin 2) * 10000 + 1 * r.val = win2_5.index t (0 : Fin 2) * 10000 + r.val; omega
  | ⟨1, _⟩ => show win2_1.index t (1 : Fin 2) * 64 + 1 * k.val = k.val; omega

set_option maxHeartbeats 1000000 in
/-- What point t writes back is block t of the round's function. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S64) hz1]
  rw [blk2 V c t, blk3 V c t, blk4 V c t]
  obtain ⟨-, -, -, -, -, -, -, -, -, e9, -⟩ := idx_facts t
  funext y
  obtain ⟨r, j, rfl⟩ : ∃ (r : Fin 10000) (j : Fin 64), y = ix2 r j := ⟨y 0, y 1, eq_ix2 y⟩
  have hr : r.val < 10000 := r.isLt
  have hi : win2_5.index t (0 : Fin 2) * 10000 + r.val < 100000 := by omega
  show k2_pay1 (iblk2 V c 0 t) (iblk2 V c 1 t) (V c (Pipeline.arrRef spec2 2)) (V c (Pipeline.arrRef spec2 3)) (V c (Pipeline.arrRef spec2 4)) (ix2 r j)
    = G V c (((cfg2.win 5).blk t).view.emb (ix2 r j))
  rw [emb_out t r j hi]
  refine Cert.Sage.Entry.middle _ _ _ _ _ _ _ ⟨_, hi⟩ r (fun k => ?_) (fun k => ?_) j
  · show V c (Pipeline.arrRef spec2 0) (((cfg2.win 0).blk t).view.emb (ix2 r k)) = V c (Pipeline.arrRef spec2 0) (ix2 ⟨_, hi⟩ k)
    rw [emb_in0 t r k hi]
  · show V c (Pipeline.arrRef spec2 1) (((cfg2.win 1).blk t).view.emb (ix2 r k)) = V c (Pipeline.arrRef spec2 1) (ix2 ⟨_, hi⟩ k)
    rw [emb_in1 t r k hi]

/-- An index of the output table is in point t's block iff each coordinate is in the block's range on its axis. -/
theorem mem_blk (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v49).slice (win2_5.rect t)).set ↔ _
  rw [View.set_slice_whole, Rect.mem_set_unit]
  exact Iff.rfl

/-- Every row of the output table is written: row i lies in the block of the point with row block i / 10000. -/
theorem cover (i : S100000x64.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output table after the region: the round's function of the tables found on entry. -/
theorem final (c : Dev nD) : (dat2 V c).arrAt 5 cfg2.N = G V c :=
  (dat2 V c).arrAt_eq_of_cover 5 (G V c) (fun t _ => flushed_eq V c t) cover

end Cert.KernelIdeal.Round3

end
-- ==== Proof.Round4.lean ====
/-
  Round 4 in the kernel: what the region leaves in its output table.

  The region walks ten grid points; point t is handed rows 10000·t … 10000·t + 9999 of the two tables (the features and
  their aggregate, 64 columns each), the whole of the two weight tables and of the bias, and writes rows 10000·t …
  10000·t + 9999 of the output (64 columns). Row r of a block is row 10000·t + r of its table, so by the entry lemma
  of a middle round the block written at t is that block of  lrelu (linM x a Ws Wn b);  the ten blocks tile the 100000 rows (row i
  lies in block i / 10000), so the output table ends as that function of the tables the region found on entry, whatever
  those are.
-/
import proofs.«144254_j14224931685026_1_alg».proof.Proof.Gen.KernelIdeal.Frame
import proofs.«144254_j14224931685026_1_alg».proof.Proof.Entry

set_option maxRecDepth 16384

noncomputable section

namespace Cert.KernelIdeal.Round4

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two table windows sit at the output's block on the row axis, every window at
    block 0 on the column axis, the weights and the bias at block 0, and the output's row block is at most 9. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) ≤ 9 ∧ win3_5.index t (1 : Fin 2) = 0 :=
  (by decide +kernel : ∀ t : Fin grid3.N, _)

/-- Every one of the ten row blocks is some point's. -/
theorem idx_onto : ∀ q : Fin 10, ∃ t : Fin cfg3.N, win3_5.index t = ![q.val, 0] :=
  (by decide +kernel : ∀ q : Fin 10, ∃ t : Fin grid3.N, win3_5.index t = ![q.val, 0])

/-- The round's function of the tables the region finds on entry. -/
abbrev G (c : Dev nD) : Cert.Sage.Fl Ideal Cert.ReferenceIdeal.S100000x64 :=
  Cert.Sage.lrelu (Cert.Sage.linM (V c (Pipeline.arrRef spec3 0)) (V c (Pipeline.arrRef spec3 1)) (V c (Pipeline.arrRef spec3 2)) (V c (Pipeline.arrRef spec3 3)) (V c (Pipeline.arrRef spec3 4)))

/-- The weight and bias windows hold their whole tables at every point. -/
theorem blk2 (c : Dev nD) (t : Fin cfg3.N) : (iblk3 V c 2 t : S64x64.Idx → EReal) = V c (Pipeline.arrRef spec3 2) := by
  obtain ⟨-, -, -, -, e4, e5, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega
theorem blk3 (c : Dev nD) (t : Fin cfg3.N) : (iblk3 V c 3 t : S64x64.Idx → EReal) = V c (Pipeline.arrRef spec3 3) := by
  obtain ⟨-, -, -, -, -, -, e6, e7, -⟩ := idx_facts t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega
theorem blk4 (c : Dev nD) (t : Fin cfg3.N) : (iblk3 V c 4 t : S64.Idx → EReal) = V c (Pipeline.arrRef spec3 4) := by
  obtain ⟨-, -, -, -, -, -, -, -, e8, -⟩ := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 1) * 64 + 1 * (y 0).val = (y 0).val; omega

/-- Row r of the block a point is handed, or writes, is row 10000·(row block) + r of the table: the three windows that
    move with the point, entry by entry. -/
theorem emb_out (t : Fin cfg3.N) (r : Fin 10000) (j : Fin 64)
    (hi : win3_5.index t (0 : Fin 2) * 10000 + r.val < 100000) :
    ((cfg3.win 5).blk t).view.emb (ix2 r j) = ix2 (⟨win3_5.index t (0 : Fin 2) * 10000 + r.val, hi⟩ : Fin 100000) j := by
  obtain ⟨-, -, -, -, -, -, -, -, -, -, e10⟩ := idx_facts t
  funext a; apply Fin.ext
  match a with
  | ⟨0, _⟩ => show win3_5.index t (0 : Fin 2) * 10000 + 1 * r.val = win3_5.index t (0 : Fin 2) * 10000 + r.val; omega
  | ⟨1, _⟩ => show win3_5.index t (1 : Fin 2) * 64 + 1 * j.val = j.val; omega
theorem emb_in0 (t : Fin cfg3.N) (r : Fin 10000) (k : Fin 64)
    (hi : win3_5.index t (0 : Fin 2) * 10000 + r.val < 100000) :
    ((cfg3.win 0).blk t).view.emb (ix2 r k) = ix2 (⟨win3_5.index t (0 : Fin 2) * 10000 + r.val, hi⟩ : Fin 100000) k := by
  obtain ⟨e0, e1, -⟩ := idx_facts t
  funext a; apply Fin.ext
  match a with
  | ⟨0, _⟩ => show win3_0.index t (0 : Fin 2) * 10000 + 1 * r.val = win3_5.index t (0 : Fin 2) * 10000 + r.val; omega
  | ⟨1, _⟩ => show win3_0.index t (1 : Fin 2) * 64 + 1 * k.val = k.val; omega
theorem emb_in1 (t : Fin cfg3.N) (r : Fin 10000) (k : Fin 64)
    (hi : win3_5.index t (0 : Fin 2) * 10000 + r.val < 100000) :
    ((cfg3.win 1).blk t).view.emb (ix2 r k) = ix2 (⟨win3_5.index t (0 : Fin 2) * 10000 + r.val, hi⟩ : Fin 100000) k := by
  obtain ⟨-, -, e2, e3, -⟩ := idx_facts t
  funext a; apply Fin.ext
  match a with
  | ⟨0, _⟩ => show win3_1.index t (0 : Fin 2) * 10000 + 1 * r.val = win3_5.index t (0 : Fin 2) * 10000 + r.val; omega
  | ⟨1, _⟩ => show win3_1.index t (1 : Fin 2) * 64 + 1 * k.val = k.val; omega

set_option maxHeartbeats 1000000 in
/-- What point t writes back is block t of the round's function. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz2]
  simp only [View.ld_unit_zero (S := S10000x64) hz2, View.ld_unit_zero (S := S64x64) hz2, View.ld_unit_zero (S := S64) hz1]
  rw [blk2 V c t, blk3 V c t, blk4 V c t]
  obtain ⟨-, -, -, -, -, -, -, -, -, e9, -⟩ := idx_facts t
  funext y
  obtain ⟨r, j, rfl⟩ : ∃ (r : Fin 10000) (j : Fin 64), y = ix2 r j := ⟨y 0, y 1, eq_ix2 y⟩
  have hr : r.val < 10000 := r.isLt
  have hi : win3_5.index t (0 : Fin 2) * 10000 + r.val < 100000 := by omega
  show k3_pay1 (iblk3 V c 0 t) (iblk3 V c 1 t) (V c (Pipeline.arrRef spec3 2)) (V c (Pipeline.arrRef spec3 3)) (V c (Pipeline.arrRef spec3 4)) (ix2 r j)
    = G V c (((cfg3.win 5).blk t).view.emb (ix2 r j))
  rw [emb_out t r j hi]
  refine Cert.Sage.Entry.middle _ _ _ _ _ _ _ ⟨_, hi⟩ r (fun k => ?_) (fun k => ?_) j
  · show V c (Pipeline.arrRef spec3 0) (((cfg3.win 0).blk t).view.emb (ix2 r k)) = V c (Pipeline.arrRef spec3 0) (ix2 ⟨_, hi⟩ k)
    rw [emb_in0 t r k hi]
  · show V c (Pipeline.arrRef spec3 1) (((cfg3.win 1).blk t).view.emb (ix2 r k)) = V c (Pipeline.arrRef spec3 1) (ix2 ⟨_, hi⟩ k)
    rw [emb_in1 t r k hi]

/-- An index of the output table is in point t's block iff each coordinate is in the block's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v63).slice (win3_5.rect t)).set ↔ _
  rw [View.set_slice_whole, Rect.mem_set_unit]
  exact Iff.rfl

/-- Every row of the output table is written: row i lies in the block of the point with row block i / 10000. -/
theorem cover (i : S100000x64.Idx) :
    ∃ t : Fin cfg3.N, (cfg3.win 5).flush t = true ∧ i ∈ ((cfg3.win 5).blk t).view.set := by
  have hi0 : (i 0).val < 100000 := idx2_lt0 i
  have hi1 : (i 1).val < 64 := idx2_lt1 i
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The output table after the region: the round's function of the tables found on entry. -/
theorem final (c : Dev nD) : (dat3 V c).arrAt 5 cfg3.N = G V c :=
  (dat3 V c).arrAt_eq_of_cover 5 (G V c) (fun t _ => flushed_eq V c t) cover

end Cert.KernelIdeal.Round4

end
-- ==== Proof.Round5.lean ====
/-
  Round 5 in the kernel: what the region leaves in its output table.

  The region walks ten grid points; point t is handed rows 10000·t … 10000·t + 9999 of the two tables (the features and
  their aggregate, 64 columns each), the whole of the two weight tables and of the bias, and writes rows 10000·t …
  10000·t + 9999 of the output (3 columns). Row r of a block is row 10000·t + r of its table, so by the entry lemma
  of the last round the block written at t is that block of  linL x a Ws Wn b;  the ten blocks tile the 100000 rows (row i
  lies in block i / 10000), so the output table ends as that function of the tables the region found on entry, whatever
  those are.
-/
import proofs.«144254_j14224931685026_1_alg».proof.Proof.Gen.KernelIdeal.Frame
import proofs.«144254_j14224931685026_1_alg».proof.Proof.Entry

set_option maxRecDepth 16384

noncomputable section

namespace Cert.KernelIdeal.Round5

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two table windows sit at the output's block on the row axis, every window at
    block 0 on the column axis, the weights and the bias at block 0, and the output's row block is at most 9. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) ≤ 9 ∧ win4_5.index t (1 : Fin 2) = 0 :=
  (by decide +kernel : ∀ t : Fin grid4.N, _)

/-- Every one of the ten row blocks is some point's. -/
theorem idx_onto : ∀ q : Fin 10, ∃ t : Fin cfg4.N, win4_5.index t = ![q.val, 0] :=
  (by decide +kernel : ∀ q : Fin 10, ∃ t : Fin grid4.N, win4_5.index t = ![q.val, 0])

/-- The round's function of the tables the region finds on entry. -/
abbrev G (c : Dev nD) : Cert.Sage.Fl Ideal Cert.ReferenceIdeal.S100000x3 :=
  Cert.Sage.linL (V c (Pipeline.arrRef spec4 0)) (V c (Pipeline.arrRef spec4 1)) (V c (Pipeline.arrRef spec4 2)) (V c (Pipeline.arrRef spec4 3)) (V c (Pipeline.arrRef spec4 4))

/-- The weight and bias windows hold their whole tables at every point. -/
theorem blk2 (c : Dev nD) (t : Fin cfg4.N) : (iblk4 V c 2 t : S64x3.Idx → EReal) = V c (Pipeline.arrRef spec4 2) := by
  obtain ⟨-, -, -, -, e4, e5, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 3 + 1 * (y 1).val = (y 1).val; omega
theorem blk3 (c : Dev nD) (t : Fin cfg4.N) : (iblk4 V c 3 t : S64x3.Idx → EReal) = V c (Pipeline.arrRef spec4 3) := by
  obtain ⟨-, -, -, -, -, -, e6, e7, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 3 + 1 * (y 1).val = (y 1).val; omega
theorem blk4 (c : Dev nD) (t : Fin cfg4.N) : (iblk4 V c 4 t : S3.Idx → EReal) = V c (Pipeline.arrRef spec4 4) := by
  obtain ⟨-, -, -, -, -, -, -, -, e8, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 1) * 3 + 1 * (y 0).val = (y 0).val; omega

/-- Row r of the block a point is handed, or writes, is row 10000·(row block) + r of the table: the three windows that
    move with the point, entry by entry. -/
theorem emb_out (t : Fin cfg4.N) (r : Fin 10000) (j : Fin 3)
    (hi : win4_5.index t (0 : Fin 2) * 10000 + r.val < 100000) :
    ((cfg4.win 5).blk t).view.emb (ix2 r j) = ix2 (⟨win4_5.index t (0 : Fin 2) * 10000 + r.val, hi⟩ : Fin 100000) j := by
  obtain ⟨-, -, -, -, -, -, -, -, -, -, e10⟩ := idx_facts t
  funext a; apply Fin.ext
  match a with
  | ⟨0, _⟩ => show win4_5.index t (0 : Fin 2) * 10000 + 1 * r.val = win4_5.index t (0 : Fin 2) * 10000 + r.val; omega
  | ⟨1, _⟩ => show win4_5.index t (1 : Fin 2) * 3 + 1 * j.val = j.val; omega
theorem emb_in0 (t : Fin cfg4.N) (r : Fin 10000) (k : Fin 64)
    (hi : win4_5.index t (0 : Fin 2) * 10000 + r.val < 100000) :
    ((cfg4.win 0).blk t).view.emb (ix2 r k) = ix2 (⟨win4_5.index t (0 : Fin 2) * 10000 + r.val, hi⟩ : Fin 100000) k := by
  obtain ⟨e0, e1, -⟩ := idx_facts t
  funext a; apply Fin.ext
  match a with
  | ⟨0, _⟩ => show win4_0.index t (0 : Fin 2) * 10000 + 1 * r.val = win4_5.index t (0 : Fin 2) * 10000 + r.val; omega
  | ⟨1, _⟩ => show win4_0.index t (1 : Fin 2) * 64 + 1 * k.val = k.val; omega
theorem emb_in1 (t : Fin cfg4.N) (r : Fin 10000) (k : Fin 64)
    (hi : win4_5.index t (0 : Fin 2) * 10000 + r.val < 100000) :
    ((cfg4.win 1).blk t).view.emb (ix2 r k) = ix2 (⟨win4_5.index t (0 : Fin 2) * 10000 + r.val, hi⟩ : Fin 100000) k := by
  obtain ⟨-, -, e2, e3, -⟩ := idx_facts t
  funext a; apply Fin.ext
  match a with
  | ⟨0, _⟩ => show win4_1.index t (0 : Fin 2) * 10000 + 1 * r.val = win4_5.index t (0 : Fin 2) * 10000 + r.val; omega
  | ⟨1, _⟩ => show win4_1.index t (1 : Fin 2) * 64 + 1 * k.val = k.val; omega

set_option maxHeartbeats 1000000 in
/-- What point t writes back is block t of the round's function. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz2]
  simp only [View.ld_unit_zero (S := S10000x64) hz2, View.ld_unit_zero (S := S64x3) hz2, View.ld_unit_zero (S := S3) hz1]
  rw [blk2 V c t, blk3 V c t, blk4 V c t]
  obtain ⟨-, -, -, -, -, -, -, -, -, e9, -⟩ := idx_facts t
  funext y
  obtain ⟨r, j, rfl⟩ : ∃ (r : Fin 10000) (j : Fin 3), y = ix2 r j := ⟨y 0, y 1, eq_ix2 y⟩
  have hr : r.val < 10000 := r.isLt
  have hi : win4_5.index t (0 : Fin 2) * 10000 + r.val < 100000 := by omega
  show k4_pay1 (iblk4 V c 0 t) (iblk4 V c 1 t) (V c (Pipeline.arrRef spec4 2)) (V c (Pipeline.arrRef spec4 3)) (V c (Pipeline.arrRef spec4 4)) (ix2 r j)
    = G V c (((cfg4.win 5).blk t).view.emb (ix2 r j))
  rw [emb_out t r j hi]
  refine Cert.Sage.Entry.last _ _ _ _ _ _ _ ⟨_, hi⟩ r (fun k => ?_) (fun k => ?_) j
  · show V c (Pipeline.arrRef spec4 0) (((cfg4.win 0).blk t).view.emb (ix2 r k)) = V c (Pipeline.arrRef spec4 0) (ix2 ⟨_, hi⟩ k)
    rw [emb_in0 t r k hi]
  · show V c (Pipeline.arrRef spec4 1) (((cfg4.win 1).blk t).view.emb (ix2 r k)) = V c (Pipeline.arrRef spec4 1) (ix2 ⟨_, hi⟩ k)
    rw [emb_in1 t r k hi]

/-- An index of the output table is in point t's block iff each coordinate is in the block's range on its axis. -/
theorem mem_blk (t : Fin cfg4.N) (i : S100000x3.Idx) :
    i ∈ ((cfg4.win 5).blk t).view.set ↔ ∀ a : Fin 2, win4_5.index t a * S10000x3.size a ≤ (i a).val
      ∧ (i a).val < win4_5.index t a * S10000x3.size a + S10000x3.size a := by
  show i ∈ ((View.whole main_v77).slice (win4_5.rect t)).set ↔ _
  rw [View.set_slice_whole, Rect.mem_set_unit]
  exact Iff.rfl

/-- Every row of the output table is written: row i lies in the block of the point with row block i / 10000. -/
theorem cover (i : S100000x3.Idx) :
    ∃ t : Fin cfg4.N, (cfg4.win 5).flush t = true ∧ i ∈ ((cfg4.win 5).blk t).view.set := by
  have hi0 : (i 0).val < 100000 := idx2_lt0 i
  have hi1 : (i 1).val < 3 := idx2_lt1 i
  obtain ⟨t, ht⟩ := idx_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 3 ≤ (i 1).val ∧ (i 1).val < win4_5.index t (1 : Fin 2) * 3 + 3; omega

/-- The output table after the region: the round's function of the tables found on entry. -/
theorem final (c : Dev nD) : (dat4 V c).arrAt 5 cfg4.N = G V c :=
  (dat4 V c).arrAt_eq_of_cover 5 (G V c) (fun t _ => flushed_eq V c t) cover

end Cert.KernelIdeal.Round5

end
-- ==== Proof.Chain.lean ====
/-
  The kernel program's fold, read back to the launch arguments.

  Write A_j for the launch contents of argument j, D = dinv A_2 for the reciprocal clipped in-degrees, and X_1 … X_4, X_5
  for the feature tables after each round (X_1 = round0 A_0 …, X_{k+1} = roundM X_k …, X_5 = roundL X_4 …). The contents
  of the core's buffers at the boundaries between the program's ten segments are W_1 … W_10. By induction along the
  segments:  no stretch of host operations and no region writes an argument buffer, so every W_L holds A_j there;  the
  first stretch leaves D in its buffer and nothing later writes it;  the stretch before round k + 1 leaves the mean
  aggregate  agg X_k A_1 A_2 D  of the current table (the same gather, scatter-sum and scaling as the reference's, read
  as one function of the four buffers it uses);  and region k + 1 replaces its output table by the round's function of
  the tables it found (the region modules), which is X_{k+1}. The last boundary's result buffer therefore holds the
  five rounds of the launch arguments.
-/
import proofs.«144254_j14224931685026_1_alg».proof.Proof.Round1
import proofs.«144254_j14224931685026_1_alg».proof.Proof.Round2
import proofs.«144254_j14224931685026_1_alg».proof.Proof.Round3
import proofs.«144254_j14224931685026_1_alg».proof.Proof.Round4
import proofs.«144254_j14224931685026_1_alg».proof.Proof.Round5
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-- The eighteen argument buffers. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- No operation of a stretch writes the buffer at hand: the stretch's destinations, one by one, are other buffers. -/
local macro "host_pass" ops:ident : tactic =>
  `(tactic| exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The stretches of host operations, over any contents `W` of the buffers on entry -/

section Host
variable (W : Valuation τ sig (Elt Ideal))

set_option maxHeartbeats 2000000 in
/-- Stretch 0 writes no argument buffer. -/
theorem host0_args : ∀ b ∈ args, StableHlo.after hostOps0 W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> host_pass hostOps0
/-- It leaves the reciprocal clipped in-degrees, and the mean aggregate of the input features. -/
theorem host0_v7 : StableHlo.after hostOps0 W (Proc.devRef .tc main_v7) = Cert.Sage.dinv (W (Proc.devRef .tc main_arg2)) := by
  after_results; rfl
set_option maxHeartbeats 3000000 in
theorem host0_agg : StableHlo.after hostOps0 W (Proc.devRef .tc main_v20)
    = Cert.Sage.agg3 (W (Proc.devRef .tc main_arg0)) (W (Proc.devRef .tc main_arg1)) (W (Proc.devRef .tc main_arg2)) (Cert.Sage.dinv (W (Proc.devRef .tc main_arg2))) := by
  after_results_simp
  rfl

set_option maxHeartbeats 2000000 in
/-- Stretch 1 writes no argument buffer. -/
theorem host1_args : ∀ b ∈ args, StableHlo.after hostOps1 W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> host_pass hostOps1
/-- Nor the reciprocal degrees, nor the table it aggregates. -/
theorem host1_v7 : StableHlo.after hostOps1 W (Proc.devRef .tc main_v7) = W (Proc.devRef .tc main_v7) := by host_pass hostOps1
theorem host1_x : StableHlo.after hostOps1 W (Proc.devRef .tc main_v21) = W (Proc.devRef .tc main_v21) := by host_pass hostOps1
set_option maxHeartbeats 3000000 in
/-- It leaves the mean aggregate of the current table. -/
theorem host1_agg : StableHlo.after hostOps1 W (Proc.devRef .tc main_v34)
    = Cert.Sage.agg64 (W (Proc.devRef .tc main_v21)) (W (Proc.devRef .tc main_arg1)) (W (Proc.devRef .tc main_arg2)) (W (Proc.devRef .tc main_v7)) := by
  after_results_simp
  rfl

set_option maxHeartbeats 2000000 in
/-- Stretch 2 writes no argument buffer. -/
theorem host2_args : ∀ b ∈ args, StableHlo.after hostOps2 W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> host_pass hostOps2
/-- Nor the reciprocal degrees, nor the table it aggregates. -/
theorem host2_v7 : StableHlo.after hostOps2 W (Proc.devRef .tc main_v7) = W (Proc.devRef .tc main_v7) := by host_pass hostOps2
theorem host2_x : StableHlo.after hostOps2 W (Proc.devRef .tc main_v35) = W (Proc.devRef .tc main_v35) := by host_pass hostOps2
set_option maxHeartbeats 3000000 in
/-- It leaves the mean aggregate of the current table. -/
theorem host2_agg : StableHlo.after hostOps2 W (Proc.devRef .tc main_v48)
    = Cert.Sage.agg64 (W (Proc.devRef .tc main_v35)) (W (Proc.devRef .tc main_arg1)) (W (Proc.devRef .tc main_arg2)) (W (Proc.devRef .tc main_v7)) := by
  after_results_simp
  rfl

set_option maxHeartbeats 2000000 in
/-- Stretch 3 writes no argument buffer. -/
theorem host3_args : ∀ b ∈ args, StableHlo.after hostOps3 W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> host_pass hostOps3
/-- Nor the reciprocal degrees, nor the table it aggregates. -/
theorem host3_v7 : StableHlo.after hostOps3 W (Proc.devRef .tc main_v7) = W (Proc.devRef .tc main_v7) := by host_pass hostOps3
theorem host3_x : StableHlo.after hostOps3 W (Proc.devRef .tc main_v49) = W (Proc.devRef .tc main_v49) := by host_pass hostOps3
set_option maxHeartbeats 3000000 in
/-- It leaves the mean aggregate of the current table. -/
theorem host3_agg : StableHlo.after hostOps3 W (Proc.devRef .tc main_v62)
    = Cert.Sage.agg64 (W (Proc.devRef .tc main_v49)) (W (Proc.devRef .tc main_arg1)) (W (Proc.devRef .tc main_arg2)) (W (Proc.devRef .tc main_v7)) := by
  after_results_simp
  rfl

set_option maxHeartbeats 2000000 in
/-- Stretch 4 writes no argument buffer. -/
theorem host4_args : ∀ b ∈ args, StableHlo.after hostOps4 W (Proc.devRef .tc b) = W (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> host_pass hostOps4
/-- Nor the reciprocal degrees, nor the table it aggregates. -/
theorem host4_v7 : StableHlo.after hostOps4 W (Proc.devRef .tc main_v7) = W (Proc.devRef .tc main_v7) := by host_pass hostOps4
theorem host4_x : StableHlo.after hostOps4 W (Proc.devRef .tc main_v63) = W (Proc.devRef .tc main_v63) := by host_pass hostOps4
set_option maxHeartbeats 3000000 in
/-- It leaves the mean aggregate of the current table. -/
theorem host4_agg : StableHlo.after hostOps4 W (Proc.devRef .tc main_v76)
    = Cert.Sage.agg64 (W (Proc.devRef .tc main_v63)) (W (Proc.devRef .tc main_arg1)) (W (Proc.devRef .tc main_arg2)) (W (Proc.devRef .tc main_v7)) := by
  after_results_simp
  rfl

end Host

/-! ## The boundaries -/

variable (m : (ℓ : Loc nD τ sig) → Buf (Elt Ideal) ℓ) (ρ : Dev nD → PrngReg) (c : Dev nD)

/-- The reciprocal clipped in-degrees of the launch graph. -/
abbrev D := Cert.Sage.dinv (m ((c : Thread nD τ).loc main_arg2))
/-- The feature tables after rounds one to four. -/
abbrev X1 := Cert.Sage.round0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev X2 := Cert.Sage.roundM (X1 m c) (m ((c : Thread nD τ).loc main_arg1)) (m ((c : Thread nD τ).loc main_arg2)) (m ((c : Thread nD τ).loc main_arg6)) (m ((c : Thread nD τ).loc main_arg7)) (m ((c : Thread nD τ).loc main_arg8))
abbrev X3 := Cert.Sage.roundM (X2 m c) (m ((c : Thread nD τ).loc main_arg1)) (m ((c : Thread nD τ).loc main_arg2)) (m ((c : Thread nD τ).loc main_arg9)) (m ((c : Thread nD τ).loc main_arg10)) (m ((c : Thread nD τ).loc main_arg11))
abbrev X4 := Cert.Sage.roundM (X3 m c) (m ((c : Thread nD τ).loc main_arg1)) (m ((c : Thread nD τ).loc main_arg2)) (m ((c : Thread nD τ).loc main_arg12)) (m ((c : Thread nD τ).loc main_arg13)) (m ((c : Thread nD τ).loc main_arg14))

/-- Region 0 writes no argument buffer: an argument it reads through an input window ends as it was found, and the
    others are not among its tables. -/
theorem reg0_args : ∀ b ∈ args, W2 m ρ c (Proc.devRef .tc b) = W1 m ρ c (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> first
    | exact W2_of_ne m ρ c _ (by decide)
    | exact (W2_arr m ρ c 0).trans (((dat0 (V1 m ρ) c).arrAt_in 0 rfl _).trans (A_eq0 (V1 m ρ) c 0))
    | exact (W2_arr m ρ c 2).trans (((dat0 (V1 m ρ) c).arrAt_in 2 rfl _).trans (A_eq0 (V1 m ρ) c 2))
    | exact (W2_arr m ρ c 3).trans (((dat0 (V1 m ρ) c).arrAt_in 3 rfl _).trans (A_eq0 (V1 m ρ) c 3))
    | exact (W2_arr m ρ c 4).trans (((dat0 (V1 m ρ) c).arrAt_in 4 rfl _).trans (A_eq0 (V1 m ρ) c 4))
theorem reg0_v7 : W2 m ρ c (Proc.devRef .tc main_v7) = W1 m ρ c (Proc.devRef .tc main_v7) := W2_of_ne m ρ c _ (by decide)

/-- Region 1 writes no argument buffer: an argument it reads through an input window ends as it was found, and the
    others are not among its tables. -/
theorem reg1_args : ∀ b ∈ args, W4 m ρ c (Proc.devRef .tc b) = W3 m ρ c (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> first
    | exact W4_of_ne m ρ c _ (by decide)
    | exact (W4_arr m ρ c 0).trans (((dat1 (V3 m ρ) c).arrAt_in 0 rfl _).trans (A_eq1 (V3 m ρ) c 0))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))
    | exact (W4_arr m ρ c 4).trans (((dat1 (V3 m ρ) c).arrAt_in 4 rfl _).trans (A_eq1 (V3 m ρ) c 4))
theorem reg1_v7 : W4 m ρ c (Proc.devRef .tc main_v7) = W3 m ρ c (Proc.devRef .tc main_v7) := W4_of_ne m ρ c _ (by decide)

/-- Region 2 writes no argument buffer: an argument it reads through an input window ends as it was found, and the
    others are not among its tables. -/
theorem reg2_args : ∀ b ∈ args, W6 m ρ c (Proc.devRef .tc b) = W5 m ρ c (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> first
    | exact W6_of_ne m ρ c _ (by decide)
    | exact (W6_arr m ρ c 0).trans (((dat2 (V5 m ρ) c).arrAt_in 0 rfl _).trans (A_eq2 (V5 m ρ) c 0))
    | exact (W6_arr m ρ c 2).trans (((dat2 (V5 m ρ) c).arrAt_in 2 rfl _).trans (A_eq2 (V5 m ρ) c 2))
    | exact (W6_arr m ρ c 3).trans (((dat2 (V5 m ρ) c).arrAt_in 3 rfl _).trans (A_eq2 (V5 m ρ) c 3))
    | exact (W6_arr m ρ c 4).trans (((dat2 (V5 m ρ) c).arrAt_in 4 rfl _).trans (A_eq2 (V5 m ρ) c 4))
theorem reg2_v7 : W6 m ρ c (Proc.devRef .tc main_v7) = W5 m ρ c (Proc.devRef .tc main_v7) := W6_of_ne m ρ c _ (by decide)

/-- Region 3 writes no argument buffer: an argument it reads through an input window ends as it was found, and the
    others are not among its tables. -/
theorem reg3_args : ∀ b ∈ args, W8 m ρ c (Proc.devRef .tc b) = W7 m ρ c (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> first
    | exact W8_of_ne m ρ c _ (by decide)
    | exact (W8_arr m ρ c 0).trans (((dat3 (V7 m ρ) c).arrAt_in 0 rfl _).trans (A_eq3 (V7 m ρ) c 0))
    | exact (W8_arr m ρ c 2).trans (((dat3 (V7 m ρ) c).arrAt_in 2 rfl _).trans (A_eq3 (V7 m ρ) c 2))
    | exact (W8_arr m ρ c 3).trans (((dat3 (V7 m ρ) c).arrAt_in 3 rfl _).trans (A_eq3 (V7 m ρ) c 3))
    | exact (W8_arr m ρ c 4).trans (((dat3 (V7 m ρ) c).arrAt_in 4 rfl _).trans (A_eq3 (V7 m ρ) c 4))
theorem reg3_v7 : W8 m ρ c (Proc.devRef .tc main_v7) = W7 m ρ c (Proc.devRef .tc main_v7) := W8_of_ne m ρ c _ (by decide)

/-- Region 4 writes no argument buffer: an argument it reads through an input window ends as it was found, and the
    others are not among its tables. -/
theorem reg4_args : ∀ b ∈ args, W10 m ρ c (Proc.devRef .tc b) = W9 m ρ c (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl | rfl <;> first
    | exact W10_of_ne m ρ c _ (by decide)
    | exact (W10_arr m ρ c 0).trans (((dat4 (V9 m ρ) c).arrAt_in 0 rfl _).trans (A_eq4 (V9 m ρ) c 0))
    | exact (W10_arr m ρ c 2).trans (((dat4 (V9 m ρ) c).arrAt_in 2 rfl _).trans (A_eq4 (V9 m ρ) c 2))
    | exact (W10_arr m ρ c 3).trans (((dat4 (V9 m ρ) c).arrAt_in 3 rfl _).trans (A_eq4 (V9 m ρ) c 3))
    | exact (W10_arr m ρ c 4).trans (((dat4 (V9 m ρ) c).arrAt_in 4 rfl _).trans (A_eq4 (V9 m ρ) c 4))
theorem reg4_v7 : W10 m ρ c (Proc.devRef .tc main_v7) = W9 m ρ c (Proc.devRef .tc main_v7) := W10_of_ne m ρ c _ (by decide)

/-! ### The arguments at every boundary -/

theorem args1 : ∀ b ∈ args, W1 m ρ c (Proc.devRef .tc b) = m ((c : Thread nD τ).loc b) :=
  fun b hb => host0_args _ b hb
theorem args2 : ∀ b ∈ args, W2 m ρ c (Proc.devRef .tc b) = m ((c : Thread nD τ).loc b) :=
  fun b hb => (reg0_args m ρ c b hb).trans (args1 m ρ c b hb)
theorem args3 : ∀ b ∈ args, W3 m ρ c (Proc.devRef .tc b) = m ((c : Thread nD τ).loc b) :=
  fun b hb => (host1_args _ b hb).trans (args2 m ρ c b hb)
theorem args4 : ∀ b ∈ args, W4 m ρ c (Proc.devRef .tc b) = m ((c : Thread nD τ).loc b) :=
  fun b hb => (reg1_args m ρ c b hb).trans (args3 m ρ c b hb)
theorem args5 : ∀ b ∈ args, W5 m ρ c (Proc.devRef .tc b) = m ((c : Thread nD τ).loc b) :=
  fun b hb => (host2_args _ b hb).trans (args4 m ρ c b hb)
theorem args6 : ∀ b ∈ args, W6 m ρ c (Proc.devRef .tc b) = m ((c : Thread nD τ).loc b) :=
  fun b hb => (reg2_args m ρ c b hb).trans (args5 m ρ c b hb)
theorem args7 : ∀ b ∈ args, W7 m ρ c (Proc.devRef .tc b) = m ((c : Thread nD τ).loc b) :=
  fun b hb => (host3_args _ b hb).trans (args6 m ρ c b hb)
theorem args8 : ∀ b ∈ args, W8 m ρ c (Proc.devRef .tc b) = m ((c : Thread nD τ).loc b) :=
  fun b hb => (reg3_args m ρ c b hb).trans (args7 m ρ c b hb)
theorem args9 : ∀ b ∈ args, W9 m ρ c (Proc.devRef .tc b) = m ((c : Thread nD τ).loc b) :=
  fun b hb => (host4_args _ b hb).trans (args8 m ρ c b hb)

/-! ### The reciprocal degrees at every boundary that still reads them -/

theorem v7_1 : W1 m ρ c (Proc.devRef .tc main_v7) = D m c := host0_v7 _
theorem v7_2 : W2 m ρ c (Proc.devRef .tc main_v7) = D m c := (reg0_v7 m ρ c).trans (v7_1 m ρ c)
theorem v7_3 : W3 m ρ c (Proc.devRef .tc main_v7) = D m c := (host1_v7 _).trans (v7_2 m ρ c)
theorem v7_4 : W4 m ρ c (Proc.devRef .tc main_v7) = D m c := (reg1_v7 m ρ c).trans (v7_3 m ρ c)
theorem v7_5 : W5 m ρ c (Proc.devRef .tc main_v7) = D m c := (host2_v7 _).trans (v7_4 m ρ c)
theorem v7_6 : W6 m ρ c (Proc.devRef .tc main_v7) = D m c := (reg2_v7 m ρ c).trans (v7_5 m ρ c)
theorem v7_7 : W7 m ρ c (Proc.devRef .tc main_v7) = D m c := (host3_v7 _).trans (v7_6 m ρ c)
theorem v7_8 : W8 m ρ c (Proc.devRef .tc main_v7) = D m c := (reg3_v7 m ρ c).trans (v7_7 m ρ c)

/-! ### The feature tables and their aggregates -/

theorem agg_1 : W1 m ρ c (Proc.devRef .tc main_v20) = Cert.Sage.agg3 (m ((c : Thread nD τ).loc main_arg0)) (m ((c : Thread nD τ).loc main_arg1)) (m ((c : Thread nD τ).loc main_arg2)) (D m c) := host0_agg _
/-- After region 0: the table of round 1. -/
theorem x1_2 : W2 m ρ c (Proc.devRef .tc main_v21) = X1 m c := by
  refine (W2_arr m ρ c 5).trans ((Cert.KernelIdeal.Round1.final (V1 m ρ) c).trans ?_)
  show Cert.Sage.lrelu (Cert.Sage.lin0 (W1 m ρ c (Proc.devRef .tc main_arg0)) (W1 m ρ c (Proc.devRef .tc main_v20)) (W1 m ρ c (Proc.devRef .tc main_arg3)) (W1 m ρ c (Proc.devRef .tc main_arg4)) (W1 m ρ c (Proc.devRef .tc main_arg5))) = _
  rw [args1 m ρ c main_arg0 (by decide : main_arg0 ∈ args), agg_1 m ρ c, args1 m ρ c main_arg3 (by decide : main_arg3 ∈ args), args1 m ρ c main_arg4 (by decide : main_arg4 ∈ args), args1 m ρ c main_arg5 (by decide : main_arg5 ∈ args)]
  rfl
/-- Through the next stretch: the table is kept and its mean aggregate is formed. -/
theorem x1_3 : W3 m ρ c (Proc.devRef .tc main_v21) = X1 m c := (host1_x _).trans (x1_2 m ρ c)
theorem agg_3 : W3 m ρ c (Proc.devRef .tc main_v34) = Cert.Sage.agg64 (X1 m c) (m ((c : Thread nD τ).loc main_arg1)) (m ((c : Thread nD τ).loc main_arg2)) (D m c) := by
  refine (host1_agg _).trans ?_
  rw [x1_2 m ρ c, args2 m ρ c main_arg1 (by decide : main_arg1 ∈ args), args2 m ρ c main_arg2 (by decide : main_arg2 ∈ args), v7_2 m ρ c]

/-- After region 1: the table of round 2. -/
theorem x2_4 : W4 m ρ c (Proc.devRef .tc main_v35) = X2 m c := by
  refine (W4_arr m ρ c 5).trans ((Cert.KernelIdeal.Round2.final (V3 m ρ) c).trans ?_)
  show Cert.Sage.lrelu (Cert.Sage.linM (W3 m ρ c (Proc.devRef .tc main_v21)) (W3 m ρ c (Proc.devRef .tc main_v34)) (W3 m ρ c (Proc.devRef .tc main_arg6)) (W3 m ρ c (Proc.devRef .tc main_arg7)) (W3 m ρ c (Proc.devRef .tc main_arg8))) = _
  rw [x1_3 m ρ c, agg_3 m ρ c, args3 m ρ c main_arg6 (by decide : main_arg6 ∈ args), args3 m ρ c main_arg7 (by decide : main_arg7 ∈ args), args3 m ρ c main_arg8 (by decide : main_arg8 ∈ args)]
  rfl
/-- Through the next stretch: the table is kept and its mean aggregate is formed. -/
theorem x2_5 : W5 m ρ c (Proc.devRef .tc main_v35) = X2 m c := (host2_x _).trans (x2_4 m ρ c)
theorem agg_5 : W5 m ρ c (Proc.devRef .tc main_v48) = Cert.Sage.agg64 (X2 m c) (m ((c : Thread nD τ).loc main_arg1)) (m ((c : Thread nD τ).loc main_arg2)) (D m c) := by
  refine (host2_agg _).trans ?_
  rw [x2_4 m ρ c, args4 m ρ c main_arg1 (by decide : main_arg1 ∈ args), args4 m ρ c main_arg2 (by decide : main_arg2 ∈ args), v7_4 m ρ c]

/-- After region 2: the table of round 3. -/
theorem x3_6 : W6 m ρ c (Proc.devRef .tc main_v49) = X3 m c := by
  refine (W6_arr m ρ c 5).trans ((Cert.KernelIdeal.Round3.final (V5 m ρ) c).trans ?_)
  show Cert.Sage.lrelu (Cert.Sage.linM (W5 m ρ c (Proc.devRef .tc main_v35)) (W5 m ρ c (Proc.devRef .tc main_v48)) (W5 m ρ c (Proc.devRef .tc main_arg9)) (W5 m ρ c (Proc.devRef .tc main_arg10)) (W5 m ρ c (Proc.devRef .tc main_arg11))) = _
  rw [x2_5 m ρ c, agg_5 m ρ c, args5 m ρ c main_arg9 (by decide : main_arg9 ∈ args), args5 m ρ c main_arg10 (by decide : main_arg10 ∈ args), args5 m ρ c main_arg11 (by decide : main_arg11 ∈ args)]
  rfl
/-- Through the next stretch: the table is kept and its mean aggregate is formed. -/
theorem x3_7 : W7 m ρ c (Proc.devRef .tc main_v49) = X3 m c := (host3_x _).trans (x3_6 m ρ c)
theorem agg_7 : W7 m ρ c (Proc.devRef .tc main_v62) = Cert.Sage.agg64 (X3 m c) (m ((c : Thread nD τ).loc main_arg1)) (m ((c : Thread nD τ).loc main_arg2)) (D m c) := by
  refine (host3_agg _).trans ?_
  rw [x3_6 m ρ c, args6 m ρ c main_arg1 (by decide : main_arg1 ∈ args), args6 m ρ c main_arg2 (by decide : main_arg2 ∈ args), v7_6 m ρ c]

/-- After region 3: the table of round 4. -/
theorem x4_8 : W8 m ρ c (Proc.devRef .tc main_v63) = X4 m c := by
  refine (W8_arr m ρ c 5).trans ((Cert.KernelIdeal.Round4.final (V7 m ρ) c).trans ?_)
  show Cert.Sage.lrelu (Cert.Sage.linM (W7 m ρ c (Proc.devRef .tc main_v49)) (W7 m ρ c (Proc.devRef .tc main_v62)) (W7 m ρ c (Proc.devRef .tc main_arg12)) (W7 m ρ c (Proc.devRef .tc main_arg13)) (W7 m ρ c (Proc.devRef .tc main_arg14))) = _
  rw [x3_7 m ρ c, agg_7 m ρ c, args7 m ρ c main_arg12 (by decide : main_arg12 ∈ args), args7 m ρ c main_arg13 (by decide : main_arg13 ∈ args), args7 m ρ c main_arg14 (by decide : main_arg14 ∈ args)]
  rfl
/-- Through the next stretch: the table is kept and its mean aggregate is formed. -/
theorem x4_9 : W9 m ρ c (Proc.devRef .tc main_v63) = X4 m c := (host4_x _).trans (x4_8 m ρ c)
theorem agg_9 : W9 m ρ c (Proc.devRef .tc main_v76) = Cert.Sage.agg64 (X4 m c) (m ((c : Thread nD τ).loc main_arg1)) (m ((c : Thread nD τ).loc main_arg2)) (D m c) := by
  refine (host4_agg _).trans ?_
  rw [x4_8 m ρ c, args8 m ρ c main_arg1 (by decide : main_arg1 ∈ args), args8 m ρ c main_arg2 (by decide : main_arg2 ∈ args), v7_8 m ρ c]

/-- After region 4: the table of round 5. -/
theorem x5_10 : W10 m ρ c (Proc.devRef .tc main_v77) = Cert.Sage.roundL (X4 m c) (m ((c : Thread nD τ).loc main_arg1)) (m ((c : Thread nD τ).loc main_arg2)) (m ((c : Thread nD τ).loc main_arg15)) (m ((c : Thread nD τ).loc main_arg16)) (m ((c : Thread nD τ).loc main_arg17)) := by
  refine (W10_arr m ρ c 5).trans ((Cert.KernelIdeal.Round5.final (V9 m ρ) c).trans ?_)
  show (Cert.Sage.linL (W9 m ρ c (Proc.devRef .tc main_v63)) (W9 m ρ c (Proc.devRef .tc main_v76)) (W9 m ρ c (Proc.devRef .tc main_arg15)) (W9 m ρ c (Proc.devRef .tc main_arg16)) (W9 m ρ c (Proc.devRef .tc main_arg17))) = _
  rw [x4_9 m ρ c, agg_9 m ρ c, args9 m ρ c main_arg15 (by decide : main_arg15 ∈ args), args9 m ρ c main_arg16 (by decide : main_arg16 ∈ args), args9 m ρ c main_arg17 (by decide : main_arg17 ∈ args)]
  rfl

/-- The result buffer at the last boundary: the five rounds of the launch arguments. -/
theorem result : W10 m ρ c (Proc.devRef .tc main_v77)
    = Cert.Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  x5_10 m ρ c

end Cert.KernelIdeal.Chain

end
-- ==== Proof.RefRun.lean ====
/-
  The reference program's run, read back as a value. @main is a straight line of 154 host operations (its four calls of
  the rectifier stand as the callee's seven operations over the call's own buffers): an opening that computes the
  reciprocal clamped in-degree w of every node, and five rounds, each of which gathers the source rows of the current
  feature table, scatter-sums them at the edges' end nodes, scales by w, and applies the affine map (the first four
  followed by the leaky rectifier).

  Each round's table is read twice by the next round and w by every round, so the result written out as one term of the
  arguments alone would hold 2^5 copies of the first round. The fold over the operations is therefore read group by
  group: for any contents W at a group's entry, the group's result buffer holds the round's function of W at the round's
  input buffers, and the buffers the group does not write hold what they held. Chained from the launch contents, the
  result buffer holds the five rounds of the arguments, and every argument is as launched.
-/
import proofs.«144254_j14224931685026_1_alg».proof.Proof.Gen.ReferenceIdeal
import proofs.«144254_j14224931685026_1_alg».proof.Proof.Spec
import Idealize.ShloMosaic.Lib.StableHlo.Run
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The opening: the in-degree of every node by a scatter-sum of ones, and its reciprocal after the maximum with one. -/
abbrev s0 : List (HloOp τ sig (Elt F)) :=
  [ StableHlo.nullary main_cst (constant S_ .f32 0x3F800000#32),
    StableHlo.unary main_cst main_v0 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg2 main_v2 (broadcastInDim S3200000x1 ![0] bcast_S3200000_S3200000x1_0 : (⟨S3200000, .i32⟩ : BufTy).Contents (Elt F) → (⟨S3200000x1, .i32⟩ : BufTy).Contents (Elt F)),
    StableHlo.ternary main_v1 main_v2 main_v0 main_v3 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v6 (broadcastInDim S100000 ![] bcast_S_S100000 : (⟨S_, .f32⟩ : BufTy).Contents (Elt F) → (⟨S100000, .f32⟩ : BufTy).Contents (Elt F)),
    StableHlo.binary main_v6 main_v5 main_v7 (Host.divf : (⟨S100000, .f32⟩ : BufTy).Contents (Elt F) → (⟨S100000, .f32⟩ : BufTy).Contents (Elt F) → (⟨S100000, .f32⟩ : BufTy).Contents (Elt F)) ]

/-- The first round: the gather of source rows, their scatter-sum at the end nodes, the mean, the affine map on 3 columns, the leaky rectifier. -/
abbrev r0 : List (HloOp τ sig (Elt F)) :=
  [ StableHlo.nullary main_c (constantI S_ 32 0#32),
    StableHlo.unary main_c main_v8 (broadcastInDim S3200000 ![] bcast_S_S3200000 : (⟨S_, .i32⟩ : BufTy).Contents (Elt F) → (⟨S3200000, .i32⟩ : BufTy).Contents (Elt F)),
    StableHlo.binary main_arg1 main_v8 main_v9 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v10 (broadcastInDim S3200000 ![] bcast_S_S3200000 : (⟨S_, .i32⟩ : BufTy).Contents (Elt F) → (⟨S3200000, .i32⟩ : BufTy).Contents (Elt F)),
    StableHlo.binary main_arg1 main_v10 main_v11 (addi : (⟨S3200000, .i32⟩ : BufTy).Contents (Elt F) → (⟨S3200000, .i32⟩ : BufTy).Contents (Elt F) → (⟨S3200000, .i32⟩ : BufTy).Contents (Elt F)),
    StableHlo.ternary main_v9 main_v11 main_arg1 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v12 main_v13 (broadcastInDim S3200000x1 ![0] bcast_S3200000_S3200000x1_0 : (⟨S3200000, .i32⟩ : BufTy).Contents (Elt F) → (⟨S3200000x1, .i32⟩ : BufTy).Contents (Elt F)),
    StableHlo.binary main_arg0 main_v13 main_v14 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    StableHlo.nullary main_cst_4 (constant S_ .f32 0x00000000#32),
    StableHlo.unary main_cst_4 main_v15 (broadcastInDim S100000x3 ![] bcast_S_S100000x3 : (⟨S_, .f32⟩ : BufTy).Contents (Elt F) → (⟨S100000x3, .f32⟩ : BufTy).Contents (Elt F)),
    StableHlo.unary main_arg2 main_v16 (broadcastInDim S3200000x1 ![0] bcast_S3200000_S3200000x1_0 : (⟨S3200000, .i32⟩ : BufTy).Contents (Elt F) → (⟨S3200000x1, .i32⟩ : BufTy).Contents (Elt F)),
    StableHlo.ternary main_v15 main_v16 main_v14 main_v17 ((fun x i u => Host.scatterAdd scatter_S100000x3_S3200000x1_S3200000x3_1_0_0_1 x i u) : (⟨S100000x3, .f32⟩ : BufTy).Contents (Elt F) → (⟨S3200000x1, .i32⟩ : BufTy).Contents (Elt F) → (⟨S3200000x3, .f32⟩ : BufTy).Contents (Elt F) → (⟨S100000x3, .f32⟩ : BufTy).Contents (Elt F)),
    StableHlo.unary main_v7 main_v18 (broadcastInDim S100000x1 ![0] bcast_S100000_S100000x1_0 : (⟨S100000, .f32⟩ : BufTy).Contents (Elt F) → (⟨S100000x1, .f32⟩ : BufTy).Contents (Elt F)),
    StableHlo.unary main_v18 main_v19 (broadcastInDim S100000x3 ![0, 1] bcast_S100000x1_S100000x3_0_1 : (⟨S100000x1, .f32⟩ : BufTy).Contents (Elt F) → (⟨S100000x3, .f32⟩ : BufTy).Contents (Elt F)),
    StableHlo.binary main_v17 main_v19 main_v20 (mulf : (⟨S100000x3, .f32⟩ : BufTy).Contents (Elt F) → (⟨S100000x3, .f32⟩ : BufTy).Contents (Elt F) → (⟨S100000x3, .f32⟩ : BufTy).Contents (Elt F)),
    StableHlo.binary main_arg0 main_arg3 main_v21 ((fun l r => Host.dotGeneral dot_S100000x3_S3x64_S100000x64_1_0_0_1_n_n none l r) : (⟨S100000x3, .f32⟩ : BufTy).Contents (Elt F) → (⟨S3x64, .f32⟩ : BufTy).Contents (Elt F) → (⟨S100000x64, .f32⟩ : BufTy).Contents (Elt F)),
    StableHlo.binary main_v20 main_arg4 main_v22 ((fun l r => Host.dotGeneral dot_S100000x3_S3x64_S100000x64_1_0_0_1_n_n none l r) : (⟨S100000x3, .f32⟩ : BufTy).Contents (Elt F) → (⟨S3x64, .f32⟩ : BufTy).Contents (Elt F) → (⟨S100000x64, .f32⟩ : BufTy).Contents (Elt F)),
    StableHlo.binary main_v21 main_v22 main_v23 (addf : (⟨S100000x64, .f32⟩ : BufTy).Contents (Elt F) → (⟨S100000x64, .f32⟩ : BufTy).Contents (Elt F) → (⟨S100000x64, .f32⟩ : BufTy).Contents (Elt F)),
    StableHlo.unary main_arg5 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3C23D70A#32),
    TRef.nullary main_call0.cst (constant S_ .f32 0x00000000#32),
    TRef.unary main_call0.cst main_call0.v0 (broadcastInDim S100000x64 ![] bcast_S_S100000x64),
    TRef.binary (.of main_v26 : TRef sig ⟨S100000x64, .f32⟩) main_call0.v0 main_call0.v1 (cmpf .oge),
    TRef.unary (.of main_cst_5 : TRef sig ⟨S_, .f32⟩) main_call0.v2 id,
    TRef.unary main_call0.v2 main_call0.v3 (broadcastInDim S100000x64 ![] bcast_S_S100000x64),
    TRef.binary main_call0.v3 (.of main_v26 : TRef sig ⟨S100000x64, .f32⟩) main_call0.v4 mulf,
    TRef.ternary main_call0.v1 (.of main_v26 : TRef sig ⟨S100000x64, .f32⟩) main_call0.v4 main_call0.call0.v0 select ]

/-- The second round, on 64 columns. -/
abbrev r1 : List (HloOp τ sig (Elt F)) :=
  [ StableHlo.nullary main_c_6 (constantI S_ 32 0#32),
    StableHlo.unary main_c_6 main_v28 (broadcastInDim S3200000 ![] bcast_S_S3200000 : (⟨S_, .i32⟩ : BufTy).Contents (Elt F) → (⟨S3200000, .i32⟩ : BufTy).Contents (Elt F)),
    StableHlo.binary main_arg1 main_v28 main_v29 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v30 (broadcastInDim S3200000 ![] bcast_S_S3200000 : (⟨S_, .i32⟩ : BufTy).Contents (Elt F) → (⟨S3200000, .i32⟩ : BufTy).Contents (Elt F)),
    StableHlo.binary main_arg1 main_v30 main_v31 (addi : (⟨S3200000, .i32⟩ : BufTy).Contents (Elt F) → (⟨S3200000, .i32⟩ : BufTy).Contents (Elt F) → (⟨S3200000, .i32⟩ : BufTy).Contents (Elt F)),
    StableHlo.ternary main_v29 main_v31 main_arg1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v32 main_v33 (broadcastInDim S3200000x1 ![0] bcast_S3200000_S3200000x1_0 : (⟨S3200000, .i32⟩ : BufTy).Contents (Elt F) → (⟨S3200000x1, .i32⟩ : BufTy).Contents (Elt F)),
    StableHlo.binary main_v27 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_8 (constant S_ .f32 0x00000000#32),
    StableHlo.unary main_cst_8 main_v35 (broadcastInDim S100000x64 ![] bcast_S_S100000x64 : (⟨S_, .f32⟩ : BufTy).Contents (Elt F) → (⟨S100000x64, .f32⟩ : BufTy).Contents (Elt F)),
    StableHlo.unary main_arg2 main_v36 (broadcastInDim S3200000x1 ![0] bcast_S3200000_S3200000x1_0 : (⟨S3200000, .i32⟩ : BufTy).Contents (Elt F) → (⟨S3200000x1, .i32⟩ : BufTy).Contents (Elt F)),
    StableHlo.ternary main_v35 main_v36 main_v34 main_v37 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_v7 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x64 ![0, 1] bcast_S100000x1_S100000x64_0_1 : (⟨S100000x1, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.binary main_v27 main_arg6 main_v41 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v40 main_arg7 main_v42 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v41 main_v42 main_v43 (addf : (⟨S100000x64, .f32⟩ : BufTy).Contents (Elt F) → (⟨S100000x64, .f32⟩ : BufTy).Contents (Elt F) → (⟨S100000x64, .f32⟩ : BufTy).Contents (Elt F)),
    StableHlo.unary main_arg8 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    TRef.nullary main_call1.cst (constant S_ .f32 0x00000000#32),
    TRef.unary main_call1.cst main_call1.v0 (broadcastInDim S100000x64 ![] bcast_S_S100000x64),
    TRef.binary (.of main_v46 : TRef sig ⟨S100000x64, .f32⟩) main_call1.v0 main_call1.v1 (cmpf .oge),
    TRef.unary (.of main_cst_9 : TRef sig ⟨S_, .f32⟩) main_call1.v2 id,
    TRef.unary main_call1.v2 main_call1.v3 (broadcastInDim S100000x64 ![] bcast_S_S100000x64),
    TRef.binary main_call1.v3 (.of main_v46 : TRef sig ⟨S100000x64, .f32⟩) main_call1.v4 mulf,
    TRef.ternary main_call1.v1 (.of main_v46 : TRef sig ⟨S100000x64, .f32⟩) main_call1.v4 main_call1.call0.v0 select ]

/-- The third round. -/
abbrev r2 : List (HloOp τ sig (Elt F)) :=
  [ StableHlo.nullary main_c_10 (constantI S_ 32 0#32),
    StableHlo.unary main_c_10 main_v48 (broadcastInDim S3200000 ![] bcast_S_S3200000 : (⟨S_, .i32⟩ : BufTy).Contents (Elt F) → (⟨S3200000, .i32⟩ : BufTy).Contents (Elt F)),
    StableHlo.binary main_arg1 main_v48 main_v49 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v50 (broadcastInDim S3200000 ![] bcast_S_S3200000 : (⟨S_, .i32⟩ : BufTy).Contents (Elt F) → (⟨S3200000, .i32⟩ : BufTy).Contents (Elt F)),
    StableHlo.binary main_arg1 main_v50 main_v51 (addi : (⟨S3200000, .i32⟩ : BufTy).Contents (Elt F) → (⟨S3200000, .i32⟩ : BufTy).Contents (Elt F) → (⟨S3200000, .i32⟩ : BufTy).Contents (Elt F)),
    StableHlo.ternary main_v49 main_v51 main_arg1 main_v52 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v52 main_v53 (broadcastInDim S3200000x1 ![0] bcast_S3200000_S3200000x1_0 : (⟨S3200000, .i32⟩ : BufTy).Contents (Elt F) → (⟨S3200000x1, .i32⟩ : BufTy).Contents (Elt F)),
    StableHlo.binary main_v47 main_v53 main_v54 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_12 (constant S_ .f32 0x00000000#32),
    StableHlo.unary main_cst_12 main_v55 (broadcastInDim S100000x64 ![] bcast_S_S100000x64 : (⟨S_, .f32⟩ : BufTy).Contents (Elt F) → (⟨S100000x64, .f32⟩ : BufTy).Contents (Elt F)),
    StableHlo.unary main_arg2 main_v56 (broadcastInDim S3200000x1 ![0] bcast_S3200000_S3200000x1_0 : (⟨S3200000, .i32⟩ : BufTy).Contents (Elt F) → (⟨S3200000x1, .i32⟩ : BufTy).Contents (Elt F)),
    StableHlo.ternary main_v55 main_v56 main_v54 main_v57 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_v7 main_v58 (broadcastInDim S100000x1 ![0] bcast_S100000_S100000x1_0 : (⟨S100000, .f32⟩ : BufTy).Contents (Elt F) → (⟨S100000x1, .f32⟩ : BufTy).Contents (Elt F)),
    StableHlo.unary main_v58 main_v59 (broadcastInDim S100000x64 ![0, 1] bcast_S100000x1_S100000x64_0_1 : (⟨S100000x1, .f32⟩ : BufTy).Contents (Elt F) → (⟨S100000x64, .f32⟩ : BufTy).Contents (Elt F)),
    StableHlo.binary main_v57 main_v59 main_v60 (mulf : (⟨S100000x64, .f32⟩ : BufTy).Contents (Elt F) → (⟨S100000x64, .f32⟩ : BufTy).Contents (Elt F) → (⟨S100000x64, .f32⟩ : BufTy).Contents (Elt F)),
    StableHlo.binary main_v47 main_arg9 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v60 main_arg10 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v61 main_v62 main_v63 (addf : (⟨S100000x64, .f32⟩ : BufTy).Contents (Elt F) → (⟨S100000x64, .f32⟩ : BufTy).Contents (Elt F) → (⟨S100000x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3C23D70A#32),
    TRef.nullary main_call2.cst (constant S_ .f32 0x00000000#32),
    TRef.unary main_call2.cst main_call2.v0 (broadcastInDim S100000x64 ![] bcast_S_S100000x64),
    TRef.binary (.of main_v66 : TRef sig ⟨S100000x64, .f32⟩) main_call2.v0 main_call2.v1 (cmpf .oge),
    TRef.unary (.of main_cst_13 : TRef sig ⟨S_, .f32⟩) main_call2.v2 id,
    TRef.unary main_call2.v2 main_call2.v3 (broadcastInDim S100000x64 ![] bcast_S_S100000x64),
    TRef.binary main_call2.v3 (.of main_v66 : TRef sig ⟨S100000x64, .f32⟩) main_call2.v4 mulf,
    TRef.ternary main_call2.v1 (.of main_v66 : TRef sig ⟨S100000x64, .f32⟩) main_call2.v4 main_call2.call0.v0 select ]

/-- The fourth round. -/
abbrev r3 : List (HloOp τ sig (Elt F)) :=
  [ StableHlo.nullary main_c_14 (constantI S_ 32 0#32),
    StableHlo.unary main_c_14 main_v68 (broadcastInDim S3200000 ![] bcast_S_S3200000 : (⟨S_, .i32⟩ : BufTy).Contents (Elt F) → (⟨S3200000, .i32⟩ : BufTy).Contents (Elt F)),
    StableHlo.binary main_arg1 main_v68 main_v69 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v70 (broadcastInDim S3200000 ![] bcast_S_S3200000 : (⟨S_, .i32⟩ : BufTy).Contents (Elt F) → (⟨S3200000, .i32⟩ : BufTy).Contents (Elt F)),
    StableHlo.binary main_arg1 main_v70 main_v71 (addi : (⟨S3200000, .i32⟩ : BufTy).Contents (Elt F) → (⟨S3200000, .i32⟩ : BufTy).Contents (Elt F) → (⟨S3200000, .i32⟩ : BufTy).Contents (Elt F)),
    StableHlo.ternary main_v69 main_v71 main_arg1 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v72 main_v73 (broadcastInDim S3200000x1 ![0] bcast_S3200000_S3200000x1_0 : (⟨S3200000, .i32⟩ : BufTy).Contents (Elt F) → (⟨S3200000x1, .i32⟩ : BufTy).Contents (Elt F)),
    StableHlo.binary main_v67 main_v73 main_v74 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_16 (constant S_ .f32 0x00000000#32),
    StableHlo.unary main_cst_16 main_v75 (broadcastInDim S100000x64 ![] bcast_S_S100000x64 : (⟨S_, .f32⟩ : BufTy).Contents (Elt F) → (⟨S100000x64, .f32⟩ : BufTy).Contents (Elt F)),
    StableHlo.unary main_arg2 main_v76 (broadcastInDim S3200000x1 ![0] bcast_S3200000_S3200000x1_0 : (⟨S3200000, .i32⟩ : BufTy).Contents (Elt F) → (⟨S3200000x1, .i32⟩ : BufTy).Contents (Elt F)),
    StableHlo.ternary main_v75 main_v76 main_v74 main_v77 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_v7 main_v78 (broadcastInDim S100000x1 ![0] bcast_S100000_S100000x1_0 : (⟨S100000, .f32⟩ : BufTy).Contents (Elt F) → (⟨S100000x1, .f32⟩ : BufTy).Contents (Elt F)),
    StableHlo.unary main_v78 main_v79 (broadcastInDim S100000x64 ![0, 1] bcast_S100000x1_S100000x64_0_1 : (⟨S100000x1, .f32⟩ : BufTy).Contents (Elt F) → (⟨S100000x64, .f32⟩ : BufTy).Contents (Elt F)),
    StableHlo.binary main_v77 main_v79 main_v80 (mulf : (⟨S100000x64, .f32⟩ : BufTy).Contents (Elt F) → (⟨S100000x64, .f32⟩ : BufTy).Contents (Elt F) → (⟨S100000x64, .f32⟩ : BufTy).Contents (Elt F)),
    StableHlo.binary main_v67 main_arg12 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v80 main_arg13 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v81 main_v82 main_v83 (addf : (⟨S100000x64, .f32⟩ : BufTy).Contents (Elt F) → (⟨S100000x64, .f32⟩ : BufTy).Contents (Elt F) → (⟨S100000x64, .f32⟩ : BufTy).Contents (Elt F)),
    StableHlo.unary main_arg14 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v85 main_v86 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3C23D70A#32),
    TRef.nullary main_call3.cst (constant S_ .f32 0x00000000#32),
    TRef.unary main_call3.cst main_call3.v0 (broadcastInDim S100000x64 ![] bcast_S_S100000x64),
    TRef.binary (.of main_v86 : TRef sig ⟨S100000x64, .f32⟩) main_call3.v0 main_call3.v1 (cmpf .oge),
    TRef.unary (.of main_cst_17 : TRef sig ⟨S_, .f32⟩) main_call3.v2 id,
    TRef.unary main_call3.v2 main_call3.v3 (broadcastInDim S100000x64 ![] bcast_S_S100000x64),
    TRef.binary main_call3.v3 (.of main_v86 : TRef sig ⟨S100000x64, .f32⟩) main_call3.v4 mulf,
    TRef.ternary main_call3.v1 (.of main_v86 : TRef sig ⟨S100000x64, .f32⟩) main_call3.v4 main_call3.call0.v0 select ]

/-- The fifth round up to the gathered rows and the scatter's operands. -/
abbrev r4a : List (HloOp τ sig (Elt F)) :=
  [ StableHlo.nullary main_c_18 (constantI S_ 32 0#32),
    StableHlo.unary main_c_18 main_v88 (broadcastInDim S3200000 ![] bcast_S_S3200000 : (⟨S_, .i32⟩ : BufTy).Contents (Elt F) → (⟨S3200000, .i32⟩ : BufTy).Contents (Elt F)),
    StableHlo.binary main_arg1 main_v88 main_v89 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v90 (broadcastInDim S3200000 ![] bcast_S_S3200000 : (⟨S_, .i32⟩ : BufTy).Contents (Elt F) → (⟨S3200000, .i32⟩ : BufTy).Contents (Elt F)),
    StableHlo.binary main_arg1 main_v90 main_v91 (addi : (⟨S3200000, .i32⟩ : BufTy).Contents (Elt F) → (⟨S3200000, .i32⟩ : BufTy).Contents (Elt F) → (⟨S3200000, .i32⟩ : BufTy).Contents (Elt F)),
    StableHlo.ternary main_v89 main_v91 main_arg1 main_v92 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v92 main_v93 (broadcastInDim S3200000x1 ![0] bcast_S3200000_S3200000x1_0 : (⟨S3200000, .i32⟩ : BufTy).Contents (Elt F) → (⟨S3200000x1, .i32⟩ : BufTy).Contents (Elt F)),
    StableHlo.binary main_v87 main_v93 main_v94 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_20 (constant S_ .f32 0x00000000#32),
    StableHlo.unary main_cst_20 main_v95 (broadcastInDim S100000x64 ![] bcast_S_S100000x64 : (⟨S_, .f32⟩ : BufTy).Contents (Elt F) → (⟨S100000x64, .f32⟩ : BufTy).Contents (Elt F)),
    StableHlo.unary main_arg2 main_v96 (broadcastInDim S3200000x1 ![0] bcast_S3200000_S3200000x1_0 : (⟨S3200000, .i32⟩ : BufTy).Contents (Elt F) → (⟨S3200000x1, .i32⟩ : BufTy).Contents (Elt F)) ]

/-- The fifth round from the scatter-sum on: the mean and the affine map to 3 columns, not rectified. -/
abbrev r4b : List (HloOp τ sig (Elt F)) :=
  [ StableHlo.ternary main_v95 main_v96 main_v94 main_v97 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_v7 main_v98 (broadcastInDim S100000x1 ![0] bcast_S100000_S100000x1_0 : (⟨S100000, .f32⟩ : BufTy).Contents (Elt F) → (⟨S100000x1, .f32⟩ : BufTy).Contents (Elt F)),
    StableHlo.unary main_v98 main_v99 (broadcastInDim S100000x64 ![0, 1] bcast_S100000x1_S100000x64_0_1 : (⟨S100000x1, .f32⟩ : BufTy).Contents (Elt F) → (⟨S100000x64, .f32⟩ : BufTy).Contents (Elt F)),
    StableHlo.binary main_v97 main_v99 main_v100 (mulf : (⟨S100000x64, .f32⟩ : BufTy).Contents (Elt F) → (⟨S100000x64, .f32⟩ : BufTy).Contents (Elt F) → (⟨S100000x64, .f32⟩ : BufTy).Contents (Elt F)),
    StableHlo.binary main_v87 main_arg15 main_v101 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v100 main_arg16 main_v102 ((fun l r => Host.dotGeneral dot_S100000x64_S64x3_S100000x3_1_0_0_1_n_n none l r) : (⟨S100000x64, .f32⟩ : BufTy).Contents (Elt F) → (⟨S64x3, .f32⟩ : BufTy).Contents (Elt F) → (⟨S100000x3, .f32⟩ : BufTy).Contents (Elt F)),
    StableHlo.binary main_v101 main_v102 main_v103 (addf : (⟨S100000x3, .f32⟩ : BufTy).Contents (Elt F) → (⟨S100000x3, .f32⟩ : BufTy).Contents (Elt F) → (⟨S100000x3, .f32⟩ : BufTy).Contents (Elt F)),
    StableHlo.unary main_arg17 main_v104 (broadcastInDim S1x3 ![1] bcast_S3_S1x3_1 : (⟨S3, .f32⟩ : BufTy).Contents (Elt F) → (⟨S1x3, .f32⟩ : BufTy).Contents (Elt F)),
    StableHlo.unary main_v104 main_v105 (broadcastInDim S100000x3 ![0, 1] bcast_S1x3_S100000x3_0_1 : (⟨S1x3, .f32⟩ : BufTy).Contents (Elt F) → (⟨S100000x3, .f32⟩ : BufTy).Contents (Elt F)),
    StableHlo.binary main_v103 main_v105 main_v106 (addf : (⟨S100000x3, .f32⟩ : BufTy).Contents (Elt F) → (⟨S100000x3, .f32⟩ : BufTy).Contents (Elt F) → (⟨S100000x3, .f32⟩ : BufTy).Contents (Elt F)) ]

/-- @main's 154 operations, in order: the opening and the five rounds. -/
abbrev ops : List (HloOp τ sig (Elt F)) := s0 ++ (r0 ++ (r1 ++ (r2 ++ (r3 ++ (r4a ++ r4b)))))

/-- The same operations grouped as the program's three consecutive windows hold them. -/
def P0 : List (HloOp τ sig (Elt F)) := s0 ++ (r0 ++ r1)
def P1 : List (HloOp τ sig (Elt F)) := r2 ++ (r3 ++ r4a)
def P2 : List (HloOp τ sig (Elt F)) := r4b
theorem ops_P : (ops : List (HloOp τ sig (Elt F))) = P0 ++ (P1 ++ P2) := by
  simp only [ops, P0, P1, P2, List.append_assoc]

set_option maxRecDepth 8192 in
set_option maxHeartbeats 4000000 in
theorem main_part0_eq (c : Dev nD) : main_part0 (F := F) c = seq P0 := rfl
set_option maxRecDepth 8192 in
set_option maxHeartbeats 4000000 in
theorem main_part1_eq (c : Dev nD) : main_part1 (F := F) c = seq P1 := rfl
set_option maxRecDepth 8192 in
theorem main_part2_eq (c : Dev nD) : main_part2 (F := F) c = seq P2 := rfl

/-- @main is that straight line: each window is its own list of operations (a called function's body stands at its
    call, over the call's buffers), and lines run one after the other are their concatenation run as one. -/
theorem main_eq (c : Dev nD) : main (F := F) c = seq ops := by
  rw [ops_P, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem s0_sub : (s0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩
set_option maxRecDepth 8192 in
theorem r0_sub : (r0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem r1_sub : (r1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem r2_sub : (r2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem r3_sub : (r3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem r4a_sub : (r4a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
set_option maxRecDepth 8192 in
theorem r4b_sub : (r4b : List (HloOp τ sig (Elt F))).Forall fun op => op.bufs ⊆ tcRefs τ sig :=
  ⟨ternary_bufs_sub .., unary_bufs_sub .., unary_bufs_sub .., binary_bufs_sub .., binary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp s0_sub op h, List.forall_iff_forall_mem.mp r0_sub op h, List.forall_iff_forall_mem.mp r1_sub op h, List.forall_iff_forall_mem.mp r2_sub op h, List.forall_iff_forall_mem.mp r3_sub op h, List.forall_iff_forall_mem.mp r4a_sub op h, List.forall_iff_forall_mem.mp r4b_sub op h]

set_option maxRecDepth 8192 in
theorem s0_fresh : (s0 : List (HloOp τ sig (Elt F))).Forall fun op => op.fresh = ∅ :=
  ⟨rfl, rfl, rfl, rfl, rfl, rfl, rfl, rfl, rfl, rfl, rfl, rfl⟩
set_option maxRecDepth 8192 in
theorem r0_fresh : (r0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem r1_fresh : (r1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem r2_fresh : (r2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem r3_fresh : (r3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem r4a_fresh : (r4a : List (HloOp τ sig (Elt F))).Forall fun op => op.fresh = ∅ :=
  ⟨rfl, rfl, rfl, rfl, rfl, rfl, rfl, rfl, rfl, rfl, rfl, rfl⟩
set_option maxRecDepth 8192 in
theorem r4b_fresh : (r4b : List (HloOp τ sig (Elt F))).Forall fun op => op.fresh = ∅ :=
  ⟨rfl, rfl, rfl, rfl, rfl, rfl, rfl, rfl, rfl, rfl⟩
/-- Every operation determines its results. -/
theorem ops_fresh : ∀ op ∈ (ops : List (HloOp τ sig (Elt F))), op.fresh = ∅ := fun op h => by
  simp only [ops, List.mem_append] at h
  rcases h with h | h | h | h | h | h | h
  exacts [List.forall_iff_forall_mem.mp s0_fresh op h, List.forall_iff_forall_mem.mp r0_fresh op h, List.forall_iff_forall_mem.mp r1_fresh op h, List.forall_iff_forall_mem.mp r2_fresh op h, List.forall_iff_forall_mem.mp r3_fresh op h, List.forall_iff_forall_mem.mp r4a_fresh op h, List.forall_iff_forall_mem.mp r4b_fresh op h]

/-! ## What each group of operations writes, and what it leaves -/

/-- The buffers that `s0`'s operations write. -/
abbrev s0_W : List (Ref sig .tc) := [main_cst, main_v0, main_cst_0, main_v1, main_v2, main_v3, main_cst_1, main_v4, main_v5, main_cst_2, main_v6, main_v7]
set_option maxRecDepth 8192 in
theorem s0_writes : (s0 : List (HloOp τ sig (Elt F))).Forall fun op => op.writes ⊆ (s0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `s0` does not write keeps its contents through it. -/
theorem s0_keep (V : Valuation τ sig (Elt F)) (r : Ref sig .tc) (h : r ∉ s0_W) :
    after s0 V (Proc.devRef .tc r) = V (Proc.devRef .tc r) :=
  after_of_writes_sub s0 _ s0_writes h

/-- The buffers that `r0`'s operations write. -/
abbrev r0_W : List (Ref sig .tc) := [main_c, main_v8, main_v9, main_c_3, main_v10, main_v11, main_v12, main_v13, main_v14, main_cst_4, main_v15, main_v16, main_v17, main_v18, main_v19, main_v20, main_v21, main_v22, main_v23, main_v24, main_v25, main_v26, main_cst_5, main_call0_cst, main_call0_v0, main_call0_v1, main_call0_v2, main_call0_v3, main_call0_v4, main_v27]
set_option maxRecDepth 8192 in
theorem r0_writes : (r0 : List (HloOp τ sig (Elt F))).Forall fun op => op.writes ⊆ (r0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r0` does not write keeps its contents through it. -/
theorem r0_keep (V : Valuation τ sig (Elt F)) (r : Ref sig .tc) (h : r ∉ r0_W) :
    after r0 V (Proc.devRef .tc r) = V (Proc.devRef .tc r) :=
  after_of_writes_sub r0 _ r0_writes h

/-- The buffers that `r1`'s operations write. -/
abbrev r1_W : List (Ref sig .tc) := [main_c_6, main_v28, main_v29, main_c_7, main_v30, main_v31, main_v32, main_v33, main_v34, main_cst_8, main_v35, main_v36, main_v37, main_v38, main_v39, main_v40, main_v41, main_v42, main_v43, main_v44, main_v45, main_v46, main_cst_9, main_call1_cst, main_call1_v0, main_call1_v1, main_call1_v2, main_call1_v3, main_call1_v4, main_v47]
set_option maxRecDepth 8192 in
theorem r1_writes : (r1 : List (HloOp τ sig (Elt F))).Forall fun op => op.writes ⊆ (r1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r1` does not write keeps its contents through it. -/
theorem r1_keep (V : Valuation τ sig (Elt F)) (r : Ref sig .tc) (h : r ∉ r1_W) :
    after r1 V (Proc.devRef .tc r) = V (Proc.devRef .tc r) :=
  after_of_writes_sub r1 _ r1_writes h

/-- The buffers that `r2`'s operations write. -/
abbrev r2_W : List (Ref sig .tc) := [main_c_10, main_v48, main_v49, main_c_11, main_v50, main_v51, main_v52, main_v53, main_v54, main_cst_12, main_v55, main_v56, main_v57, main_v58, main_v59, main_v60, main_v61, main_v62, main_v63, main_v64, main_v65, main_v66, main_cst_13, main_call2_cst, main_call2_v0, main_call2_v1, main_call2_v2, main_call2_v3, main_call2_v4, main_v67]
set_option maxRecDepth 8192 in
theorem r2_writes : (r2 : List (HloOp τ sig (Elt F))).Forall fun op => op.writes ⊆ (r2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r2` does not write keeps its contents through it. -/
theorem r2_keep (V : Valuation τ sig (Elt F)) (r : Ref sig .tc) (h : r ∉ r2_W) :
    after r2 V (Proc.devRef .tc r) = V (Proc.devRef .tc r) :=
  after_of_writes_sub r2 _ r2_writes h

/-- The buffers that `r3`'s operations write. -/
abbrev r3_W : List (Ref sig .tc) := [main_c_14, main_v68, main_v69, main_c_15, main_v70, main_v71, main_v72, main_v73, main_v74, main_cst_16, main_v75, main_v76, main_v77, main_v78, main_v79, main_v80, main_v81, main_v82, main_v83, main_v84, main_v85, main_v86, main_cst_17, main_call3_cst, main_call3_v0, main_call3_v1, main_call3_v2, main_call3_v3, main_call3_v4, main_v87]
set_option maxRecDepth 8192 in
theorem r3_writes : (r3 : List (HloOp τ sig (Elt F))).Forall fun op => op.writes ⊆ (r3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r3` does not write keeps its contents through it. -/
theorem r3_keep (V : Valuation τ sig (Elt F)) (r : Ref sig .tc) (h : r ∉ r3_W) :
    after r3 V (Proc.devRef .tc r) = V (Proc.devRef .tc r) :=
  after_of_writes_sub r3 _ r3_writes h

/-- The buffers that `r4a`'s operations write. -/
abbrev r4a_W : List (Ref sig .tc) := [main_c_18, main_v88, main_v89, main_c_19, main_v90, main_v91, main_v92, main_v93, main_v94, main_cst_20, main_v95, main_v96]
set_option maxRecDepth 8192 in
theorem r4a_writes : (r4a : List (HloOp τ sig (Elt F))).Forall fun op => op.writes ⊆ (r4a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r4a` does not write keeps its contents through it. -/
theorem r4a_keep (V : Valuation τ sig (Elt F)) (r : Ref sig .tc) (h : r ∉ r4a_W) :
    after r4a V (Proc.devRef .tc r) = V (Proc.devRef .tc r) :=
  after_of_writes_sub r4a _ r4a_writes h

/-- The buffers that `r4b`'s operations write. -/
abbrev r4b_W : List (Ref sig .tc) := [main_v97, main_v98, main_v99, main_v100, main_v101, main_v102, main_v103, main_v104, main_v105, main_v106]
set_option maxRecDepth 8192 in
theorem r4b_writes : (r4b : List (HloOp τ sig (Elt F))).Forall fun op => op.writes ⊆ (r4b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `r4b` does not write keeps its contents through it. -/
theorem r4b_keep (V : Valuation τ sig (Elt F)) (r : Ref sig .tc) (h : r ∉ r4b_W) :
    after r4b V (Proc.devRef .tc r) = V (Proc.devRef .tc r) :=
  after_of_writes_sub r4b _ r4b_writes h

/-! ## What each group computes, from any contents `W` at its entry -/

set_option maxRecDepth 8192 in
set_option maxHeartbeats 3000000 in
/-- The opening leaves the reciprocal of the clamped in-degree in its last buffer. -/
theorem s0_out (W : Valuation τ sig (Elt F)) : after s0 W (Proc.devRef .tc main_v7) = Cert.Sage.dinv (W (Proc.devRef .tc main_arg2)) := by
  simp only [s0]
  after_results_simp
  rfl

set_option maxRecDepth 8192 in
set_option maxHeartbeats 3000000 in
/-- The first round's result, from the feature table, the edge lists, the reciprocal in-degrees and its weights. -/
theorem r0_out (W : Valuation τ sig (Elt F)) : after r0 W (Proc.devRef .tc main_v27)
    = Cert.Sage.lrelu (Cert.Sage.lin0 (W (Proc.devRef .tc main_arg0))
        (Cert.Sage.agg3 (W (Proc.devRef .tc main_arg0)) (W (Proc.devRef .tc main_arg1)) (W (Proc.devRef .tc main_arg2)) (W (Proc.devRef .tc main_v7)))
        (W (Proc.devRef .tc main_arg3)) (W (Proc.devRef .tc main_arg4)) (W (Proc.devRef .tc main_arg5))) := by
  simp only [r0]
  after_results_simp
  rfl

set_option maxRecDepth 8192 in
set_option maxHeartbeats 3000000 in
/-- A middle round's result, from the previous round's table. -/
theorem r1_out (W : Valuation τ sig (Elt F)) : after r1 W (Proc.devRef .tc main_v47)
    = Cert.Sage.lrelu (Cert.Sage.linM (W (Proc.devRef .tc main_v27))
        (Cert.Sage.agg64 (W (Proc.devRef .tc main_v27)) (W (Proc.devRef .tc main_arg1)) (W (Proc.devRef .tc main_arg2)) (W (Proc.devRef .tc main_v7)))
        (W (Proc.devRef .tc main_arg6)) (W (Proc.devRef .tc main_arg7)) (W (Proc.devRef .tc main_arg8))) := by
  simp only [r1]
  after_results_simp
  rfl

set_option maxRecDepth 8192 in
set_option maxHeartbeats 3000000 in
/-- A middle round's result, from the previous round's table. -/
theorem r2_out (W : Valuation τ sig (Elt F)) : after r2 W (Proc.devRef .tc main_v67)
    = Cert.Sage.lrelu (Cert.Sage.linM (W (Proc.devRef .tc main_v47))
        (Cert.Sage.agg64 (W (Proc.devRef .tc main_v47)) (W (Proc.devRef .tc main_arg1)) (W (Proc.devRef .tc main_arg2)) (W (Proc.devRef .tc main_v7)))
        (W (Proc.devRef .tc main_arg9)) (W (Proc.devRef .tc main_arg10)) (W (Proc.devRef .tc main_arg11))) := by
  simp only [r2]
  after_results_simp
  rfl

set_option maxRecDepth 8192 in
set_option maxHeartbeats 3000000 in
/-- A middle round's result, from the previous round's table. -/
theorem r3_out (W : Valuation τ sig (Elt F)) : after r3 W (Proc.devRef .tc main_v87)
    = Cert.Sage.lrelu (Cert.Sage.linM (W (Proc.devRef .tc main_v67))
        (Cert.Sage.agg64 (W (Proc.devRef .tc main_v67)) (W (Proc.devRef .tc main_arg1)) (W (Proc.devRef .tc main_arg2)) (W (Proc.devRef .tc main_v7)))
        (W (Proc.devRef .tc main_arg12)) (W (Proc.devRef .tc main_arg13)) (W (Proc.devRef .tc main_arg14))) := by
  simp only [r3]
  after_results_simp
  rfl

set_option maxRecDepth 8192 in
set_option maxHeartbeats 3000000 in
/-- The last round's result: no rectifier. -/
theorem r4_out (W : Valuation τ sig (Elt F)) : after r4b (after r4a W) (Proc.devRef .tc main_v106)
    = Cert.Sage.linL (W (Proc.devRef .tc main_v87))
        (Cert.Sage.agg64 (W (Proc.devRef .tc main_v87)) (W (Proc.devRef .tc main_arg1)) (W (Proc.devRef .tc main_arg2)) (W (Proc.devRef .tc main_v7)))
        (W (Proc.devRef .tc main_arg15)) (W (Proc.devRef .tc main_arg16)) (W (Proc.devRef .tc main_arg17)) := by
  simp only [r4a, r4b]
  after_results_simp
  rfl

/-! ## The fold, group by group -/

/-- The device's buffer contents after the opening, and after each round in turn. -/
def val1 (V : Valuation τ sig (Elt F)) : Valuation τ sig (Elt F) := after s0 V
def val2 (V : Valuation τ sig (Elt F)) : Valuation τ sig (Elt F) := after r0 (val1 V)
def val3 (V : Valuation τ sig (Elt F)) : Valuation τ sig (Elt F) := after r1 (val2 V)
def val4 (V : Valuation τ sig (Elt F)) : Valuation τ sig (Elt F) := after r2 (val3 V)
def val5 (V : Valuation τ sig (Elt F)) : Valuation τ sig (Elt F) := after r3 (val4 V)
def val6 (V : Valuation τ sig (Elt F)) : Valuation τ sig (Elt F) := after r4b (after r4a (val5 V))

theorem after_ops (V : Valuation τ sig (Elt F)) : after ops V = val6 V := by
  simp only [ops, after_append]
  rfl

theorem val1_keep (V : Valuation τ sig (Elt F)) (r : Ref sig .tc) (h : r ∉ s0_W) :
    val1 V (Proc.devRef .tc r) = V (Proc.devRef .tc r) := s0_keep _ r h
theorem val2_keep (V : Valuation τ sig (Elt F)) (r : Ref sig .tc) (h : r ∉ r0_W) :
    val2 V (Proc.devRef .tc r) = val1 V (Proc.devRef .tc r) := r0_keep _ r h
theorem val3_keep (V : Valuation τ sig (Elt F)) (r : Ref sig .tc) (h : r ∉ r1_W) :
    val3 V (Proc.devRef .tc r) = val2 V (Proc.devRef .tc r) := r1_keep _ r h
theorem val4_keep (V : Valuation τ sig (Elt F)) (r : Ref sig .tc) (h : r ∉ r2_W) :
    val4 V (Proc.devRef .tc r) = val3 V (Proc.devRef .tc r) := r2_keep _ r h
theorem val5_keep (V : Valuation τ sig (Elt F)) (r : Ref sig .tc) (h : r ∉ r3_W) :
    val5 V (Proc.devRef .tc r) = val4 V (Proc.devRef .tc r) := r3_keep _ r h
theorem val6_keep (V : Valuation τ sig (Elt F)) (r : Ref sig .tc) (ha : r ∉ r4a_W) (hb : r ∉ r4b_W) :
    val6 V (Proc.devRef .tc r) = val5 V (Proc.devRef .tc r) := (r4b_keep _ r hb).trans (r4a_keep _ r ha)

/-! ### No operation writes an argument: each is, all along, what the launch gave it -/

theorem val1_main_arg0 (V : Valuation τ sig (Elt F)) : val1 V (no_index (Proc.devRef .tc main_arg0)) = V (Proc.devRef .tc main_arg0) := val1_keep V main_arg0 (by decide)
theorem val2_main_arg0 (V : Valuation τ sig (Elt F)) : val2 V (no_index (Proc.devRef .tc main_arg0)) = V (Proc.devRef .tc main_arg0) := (val2_keep V main_arg0 (by decide)).trans (val1_main_arg0 V)
theorem val3_main_arg0 (V : Valuation τ sig (Elt F)) : val3 V (no_index (Proc.devRef .tc main_arg0)) = V (Proc.devRef .tc main_arg0) := (val3_keep V main_arg0 (by decide)).trans (val2_main_arg0 V)
theorem val4_main_arg0 (V : Valuation τ sig (Elt F)) : val4 V (no_index (Proc.devRef .tc main_arg0)) = V (Proc.devRef .tc main_arg0) := (val4_keep V main_arg0 (by decide)).trans (val3_main_arg0 V)
theorem val5_main_arg0 (V : Valuation τ sig (Elt F)) : val5 V (no_index (Proc.devRef .tc main_arg0)) = V (Proc.devRef .tc main_arg0) := (val5_keep V main_arg0 (by decide)).trans (val4_main_arg0 V)
theorem val6_main_arg0 (V : Valuation τ sig (Elt F)) : val6 V (no_index (Proc.devRef .tc main_arg0)) = V (Proc.devRef .tc main_arg0) := (val6_keep V main_arg0 (by decide) (by decide)).trans (val5_main_arg0 V)
theorem val1_main_arg1 (V : Valuation τ sig (Elt F)) : val1 V (no_index (Proc.devRef .tc main_arg1)) = V (Proc.devRef .tc main_arg1) := val1_keep V main_arg1 (by decide)
theorem val2_main_arg1 (V : Valuation τ sig (Elt F)) : val2 V (no_index (Proc.devRef .tc main_arg1)) = V (Proc.devRef .tc main_arg1) := (val2_keep V main_arg1 (by decide)).trans (val1_main_arg1 V)
theorem val3_main_arg1 (V : Valuation τ sig (Elt F)) : val3 V (no_index (Proc.devRef .tc main_arg1)) = V (Proc.devRef .tc main_arg1) := (val3_keep V main_arg1 (by decide)).trans (val2_main_arg1 V)
theorem val4_main_arg1 (V : Valuation τ sig (Elt F)) : val4 V (no_index (Proc.devRef .tc main_arg1)) = V (Proc.devRef .tc main_arg1) := (val4_keep V main_arg1 (by decide)).trans (val3_main_arg1 V)
theorem val5_main_arg1 (V : Valuation τ sig (Elt F)) : val5 V (no_index (Proc.devRef .tc main_arg1)) = V (Proc.devRef .tc main_arg1) := (val5_keep V main_arg1 (by decide)).trans (val4_main_arg1 V)
theorem val6_main_arg1 (V : Valuation τ sig (Elt F)) : val6 V (no_index (Proc.devRef .tc main_arg1)) = V (Proc.devRef .tc main_arg1) := (val6_keep V main_arg1 (by decide) (by decide)).trans (val5_main_arg1 V)
theorem val1_main_arg2 (V : Valuation τ sig (Elt F)) : val1 V (no_index (Proc.devRef .tc main_arg2)) = V (Proc.devRef .tc main_arg2) := val1_keep V main_arg2 (by decide)
theorem val2_main_arg2 (V : Valuation τ sig (Elt F)) : val2 V (no_index (Proc.devRef .tc main_arg2)) = V (Proc.devRef .tc main_arg2) := (val2_keep V main_arg2 (by decide)).trans (val1_main_arg2 V)
theorem val3_main_arg2 (V : Valuation τ sig (Elt F)) : val3 V (no_index (Proc.devRef .tc main_arg2)) = V (Proc.devRef .tc main_arg2) := (val3_keep V main_arg2 (by decide)).trans (val2_main_arg2 V)
theorem val4_main_arg2 (V : Valuation τ sig (Elt F)) : val4 V (no_index (Proc.devRef .tc main_arg2)) = V (Proc.devRef .tc main_arg2) := (val4_keep V main_arg2 (by decide)).trans (val3_main_arg2 V)
theorem val5_main_arg2 (V : Valuation τ sig (Elt F)) : val5 V (no_index (Proc.devRef .tc main_arg2)) = V (Proc.devRef .tc main_arg2) := (val5_keep V main_arg2 (by decide)).trans (val4_main_arg2 V)
theorem val6_main_arg2 (V : Valuation τ sig (Elt F)) : val6 V (no_index (Proc.devRef .tc main_arg2)) = V (Proc.devRef .tc main_arg2) := (val6_keep V main_arg2 (by decide) (by decide)).trans (val5_main_arg2 V)
theorem val1_main_arg3 (V : Valuation τ sig (Elt F)) : val1 V (no_index (Proc.devRef .tc main_arg3)) = V (Proc.devRef .tc main_arg3) := val1_keep V main_arg3 (by decide)
theorem val2_main_arg3 (V : Valuation τ sig (Elt F)) : val2 V (no_index (Proc.devRef .tc main_arg3)) = V (Proc.devRef .tc main_arg3) := (val2_keep V main_arg3 (by decide)).trans (val1_main_arg3 V)
theorem val3_main_arg3 (V : Valuation τ sig (Elt F)) : val3 V (no_index (Proc.devRef .tc main_arg3)) = V (Proc.devRef .tc main_arg3) := (val3_keep V main_arg3 (by decide)).trans (val2_main_arg3 V)
theorem val4_main_arg3 (V : Valuation τ sig (Elt F)) : val4 V (no_index (Proc.devRef .tc main_arg3)) = V (Proc.devRef .tc main_arg3) := (val4_keep V main_arg3 (by decide)).trans (val3_main_arg3 V)
theorem val5_main_arg3 (V : Valuation τ sig (Elt F)) : val5 V (no_index (Proc.devRef .tc main_arg3)) = V (Proc.devRef .tc main_arg3) := (val5_keep V main_arg3 (by decide)).trans (val4_main_arg3 V)
theorem val6_main_arg3 (V : Valuation τ sig (Elt F)) : val6 V (no_index (Proc.devRef .tc main_arg3)) = V (Proc.devRef .tc main_arg3) := (val6_keep V main_arg3 (by decide) (by decide)).trans (val5_main_arg3 V)
theorem val1_main_arg4 (V : Valuation τ sig (Elt F)) : val1 V (no_index (Proc.devRef .tc main_arg4)) = V (Proc.devRef .tc main_arg4) := val1_keep V main_arg4 (by decide)
theorem val2_main_arg4 (V : Valuation τ sig (Elt F)) : val2 V (no_index (Proc.devRef .tc main_arg4)) = V (Proc.devRef .tc main_arg4) := (val2_keep V main_arg4 (by decide)).trans (val1_main_arg4 V)
theorem val3_main_arg4 (V : Valuation τ sig (Elt F)) : val3 V (no_index (Proc.devRef .tc main_arg4)) = V (Proc.devRef .tc main_arg4) := (val3_keep V main_arg4 (by decide)).trans (val2_main_arg4 V)
theorem val4_main_arg4 (V : Valuation τ sig (Elt F)) : val4 V (no_index (Proc.devRef .tc main_arg4)) = V (Proc.devRef .tc main_arg4) := (val4_keep V main_arg4 (by decide)).trans (val3_main_arg4 V)
theorem val5_main_arg4 (V : Valuation τ sig (Elt F)) : val5 V (no_index (Proc.devRef .tc main_arg4)) = V (Proc.devRef .tc main_arg4) := (val5_keep V main_arg4 (by decide)).trans (val4_main_arg4 V)
theorem val6_main_arg4 (V : Valuation τ sig (Elt F)) : val6 V (no_index (Proc.devRef .tc main_arg4)) = V (Proc.devRef .tc main_arg4) := (val6_keep V main_arg4 (by decide) (by decide)).trans (val5_main_arg4 V)
theorem val1_main_arg5 (V : Valuation τ sig (Elt F)) : val1 V (no_index (Proc.devRef .tc main_arg5)) = V (Proc.devRef .tc main_arg5) := val1_keep V main_arg5 (by decide)
theorem val2_main_arg5 (V : Valuation τ sig (Elt F)) : val2 V (no_index (Proc.devRef .tc main_arg5)) = V (Proc.devRef .tc main_arg5) := (val2_keep V main_arg5 (by decide)).trans (val1_main_arg5 V)
theorem val3_main_arg5 (V : Valuation τ sig (Elt F)) : val3 V (no_index (Proc.devRef .tc main_arg5)) = V (Proc.devRef .tc main_arg5) := (val3_keep V main_arg5 (by decide)).trans (val2_main_arg5 V)
theorem val4_main_arg5 (V : Valuation τ sig (Elt F)) : val4 V (no_index (Proc.devRef .tc main_arg5)) = V (Proc.devRef .tc main_arg5) := (val4_keep V main_arg5 (by decide)).trans (val3_main_arg5 V)
theorem val5_main_arg5 (V : Valuation τ sig (Elt F)) : val5 V (no_index (Proc.devRef .tc main_arg5)) = V (Proc.devRef .tc main_arg5) := (val5_keep V main_arg5 (by decide)).trans (val4_main_arg5 V)
theorem val6_main_arg5 (V : Valuation τ sig (Elt F)) : val6 V (no_index (Proc.devRef .tc main_arg5)) = V (Proc.devRef .tc main_arg5) := (val6_keep V main_arg5 (by decide) (by decide)).trans (val5_main_arg5 V)
theorem val1_main_arg6 (V : Valuation τ sig (Elt F)) : val1 V (no_index (Proc.devRef .tc main_arg6)) = V (Proc.devRef .tc main_arg6) := val1_keep V main_arg6 (by decide)
theorem val2_main_arg6 (V : Valuation τ sig (Elt F)) : val2 V (no_index (Proc.devRef .tc main_arg6)) = V (Proc.devRef .tc main_arg6) := (val2_keep V main_arg6 (by decide)).trans (val1_main_arg6 V)
theorem val3_main_arg6 (V : Valuation τ sig (Elt F)) : val3 V (no_index (Proc.devRef .tc main_arg6)) = V (Proc.devRef .tc main_arg6) := (val3_keep V main_arg6 (by decide)).trans (val2_main_arg6 V)
theorem val4_main_arg6 (V : Valuation τ sig (Elt F)) : val4 V (no_index (Proc.devRef .tc main_arg6)) = V (Proc.devRef .tc main_arg6) := (val4_keep V main_arg6 (by decide)).trans (val3_main_arg6 V)
theorem val5_main_arg6 (V : Valuation τ sig (Elt F)) : val5 V (no_index (Proc.devRef .tc main_arg6)) = V (Proc.devRef .tc main_arg6) := (val5_keep V main_arg6 (by decide)).trans (val4_main_arg6 V)
theorem val6_main_arg6 (V : Valuation τ sig (Elt F)) : val6 V (no_index (Proc.devRef .tc main_arg6)) = V (Proc.devRef .tc main_arg6) := (val6_keep V main_arg6 (by decide) (by decide)).trans (val5_main_arg6 V)
theorem val1_main_arg7 (V : Valuation τ sig (Elt F)) : val1 V (no_index (Proc.devRef .tc main_arg7)) = V (Proc.devRef .tc main_arg7) := val1_keep V main_arg7 (by decide)
theorem val2_main_arg7 (V : Valuation τ sig (Elt F)) : val2 V (no_index (Proc.devRef .tc main_arg7)) = V (Proc.devRef .tc main_arg7) := (val2_keep V main_arg7 (by decide)).trans (val1_main_arg7 V)
theorem val3_main_arg7 (V : Valuation τ sig (Elt F)) : val3 V (no_index (Proc.devRef .tc main_arg7)) = V (Proc.devRef .tc main_arg7) := (val3_keep V main_arg7 (by decide)).trans (val2_main_arg7 V)
theorem val4_main_arg7 (V : Valuation τ sig (Elt F)) : val4 V (no_index (Proc.devRef .tc main_arg7)) = V (Proc.devRef .tc main_arg7) := (val4_keep V main_arg7 (by decide)).trans (val3_main_arg7 V)
theorem val5_main_arg7 (V : Valuation τ sig (Elt F)) : val5 V (no_index (Proc.devRef .tc main_arg7)) = V (Proc.devRef .tc main_arg7) := (val5_keep V main_arg7 (by decide)).trans (val4_main_arg7 V)
theorem val6_main_arg7 (V : Valuation τ sig (Elt F)) : val6 V (no_index (Proc.devRef .tc main_arg7)) = V (Proc.devRef .tc main_arg7) := (val6_keep V main_arg7 (by decide) (by decide)).trans (val5_main_arg7 V)
theorem val1_main_arg8 (V : Valuation τ sig (Elt F)) : val1 V (no_index (Proc.devRef .tc main_arg8)) = V (Proc.devRef .tc main_arg8) := val1_keep V main_arg8 (by decide)
theorem val2_main_arg8 (V : Valuation τ sig (Elt F)) : val2 V (no_index (Proc.devRef .tc main_arg8)) = V (Proc.devRef .tc main_arg8) := (val2_keep V main_arg8 (by decide)).trans (val1_main_arg8 V)
theorem val3_main_arg8 (V : Valuation τ sig (Elt F)) : val3 V (no_index (Proc.devRef .tc main_arg8)) = V (Proc.devRef .tc main_arg8) := (val3_keep V main_arg8 (by decide)).trans (val2_main_arg8 V)
theorem val4_main_arg8 (V : Valuation τ sig (Elt F)) : val4 V (no_index (Proc.devRef .tc main_arg8)) = V (Proc.devRef .tc main_arg8) := (val4_keep V main_arg8 (by decide)).trans (val3_main_arg8 V)
theorem val5_main_arg8 (V : Valuation τ sig (Elt F)) : val5 V (no_index (Proc.devRef .tc main_arg8)) = V (Proc.devRef .tc main_arg8) := (val5_keep V main_arg8 (by decide)).trans (val4_main_arg8 V)
theorem val6_main_arg8 (V : Valuation τ sig (Elt F)) : val6 V (no_index (Proc.devRef .tc main_arg8)) = V (Proc.devRef .tc main_arg8) := (val6_keep V main_arg8 (by decide) (by decide)).trans (val5_main_arg8 V)
theorem val1_main_arg9 (V : Valuation τ sig (Elt F)) : val1 V (no_index (Proc.devRef .tc main_arg9)) = V (Proc.devRef .tc main_arg9) := val1_keep V main_arg9 (by decide)
theorem val2_main_arg9 (V : Valuation τ sig (Elt F)) : val2 V (no_index (Proc.devRef .tc main_arg9)) = V (Proc.devRef .tc main_arg9) := (val2_keep V main_arg9 (by decide)).trans (val1_main_arg9 V)
theorem val3_main_arg9 (V : Valuation τ sig (Elt F)) : val3 V (no_index (Proc.devRef .tc main_arg9)) = V (Proc.devRef .tc main_arg9) := (val3_keep V main_arg9 (by decide)).trans (val2_main_arg9 V)
theorem val4_main_arg9 (V : Valuation τ sig (Elt F)) : val4 V (no_index (Proc.devRef .tc main_arg9)) = V (Proc.devRef .tc main_arg9) := (val4_keep V main_arg9 (by decide)).trans (val3_main_arg9 V)
theorem val5_main_arg9 (V : Valuation τ sig (Elt F)) : val5 V (no_index (Proc.devRef .tc main_arg9)) = V (Proc.devRef .tc main_arg9) := (val5_keep V main_arg9 (by decide)).trans (val4_main_arg9 V)
theorem val6_main_arg9 (V : Valuation τ sig (Elt F)) : val6 V (no_index (Proc.devRef .tc main_arg9)) = V (Proc.devRef .tc main_arg9) := (val6_keep V main_arg9 (by decide) (by decide)).trans (val5_main_arg9 V)
theorem val1_main_arg10 (V : Valuation τ sig (Elt F)) : val1 V (no_index (Proc.devRef .tc main_arg10)) = V (Proc.devRef .tc main_arg10) := val1_keep V main_arg10 (by decide)
theorem val2_main_arg10 (V : Valuation τ sig (Elt F)) : val2 V (no_index (Proc.devRef .tc main_arg10)) = V (Proc.devRef .tc main_arg10) := (val2_keep V main_arg10 (by decide)).trans (val1_main_arg10 V)
theorem val3_main_arg10 (V : Valuation τ sig (Elt F)) : val3 V (no_index (Proc.devRef .tc main_arg10)) = V (Proc.devRef .tc main_arg10) := (val3_keep V main_arg10 (by decide)).trans (val2_main_arg10 V)
theorem val4_main_arg10 (V : Valuation τ sig (Elt F)) : val4 V (no_index (Proc.devRef .tc main_arg10)) = V (Proc.devRef .tc main_arg10) := (val4_keep V main_arg10 (by decide)).trans (val3_main_arg10 V)
theorem val5_main_arg10 (V : Valuation τ sig (Elt F)) : val5 V (no_index (Proc.devRef .tc main_arg10)) = V (Proc.devRef .tc main_arg10) := (val5_keep V main_arg10 (by decide)).trans (val4_main_arg10 V)
theorem val6_main_arg10 (V : Valuation τ sig (Elt F)) : val6 V (no_index (Proc.devRef .tc main_arg10)) = V (Proc.devRef .tc main_arg10) := (val6_keep V main_arg10 (by decide) (by decide)).trans (val5_main_arg10 V)
theorem val1_main_arg11 (V : Valuation τ sig (Elt F)) : val1 V (no_index (Proc.devRef .tc main_arg11)) = V (Proc.devRef .tc main_arg11) := val1_keep V main_arg11 (by decide)
theorem val2_main_arg11 (V : Valuation τ sig (Elt F)) : val2 V (no_index (Proc.devRef .tc main_arg11)) = V (Proc.devRef .tc main_arg11) := (val2_keep V main_arg11 (by decide)).trans (val1_main_arg11 V)
theorem val3_main_arg11 (V : Valuation τ sig (Elt F)) : val3 V (no_index (Proc.devRef .tc main_arg11)) = V (Proc.devRef .tc main_arg11) := (val3_keep V main_arg11 (by decide)).trans (val2_main_arg11 V)
theorem val4_main_arg11 (V : Valuation τ sig (Elt F)) : val4 V (no_index (Proc.devRef .tc main_arg11)) = V (Proc.devRef .tc main_arg11) := (val4_keep V main_arg11 (by decide)).trans (val3_main_arg11 V)
theorem val5_main_arg11 (V : Valuation τ sig (Elt F)) : val5 V (no_index (Proc.devRef .tc main_arg11)) = V (Proc.devRef .tc main_arg11) := (val5_keep V main_arg11 (by decide)).trans (val4_main_arg11 V)
theorem val6_main_arg11 (V : Valuation τ sig (Elt F)) : val6 V (no_index (Proc.devRef .tc main_arg11)) = V (Proc.devRef .tc main_arg11) := (val6_keep V main_arg11 (by decide) (by decide)).trans (val5_main_arg11 V)
theorem val1_main_arg12 (V : Valuation τ sig (Elt F)) : val1 V (no_index (Proc.devRef .tc main_arg12)) = V (Proc.devRef .tc main_arg12) := val1_keep V main_arg12 (by decide)
theorem val2_main_arg12 (V : Valuation τ sig (Elt F)) : val2 V (no_index (Proc.devRef .tc main_arg12)) = V (Proc.devRef .tc main_arg12) := (val2_keep V main_arg12 (by decide)).trans (val1_main_arg12 V)
theorem val3_main_arg12 (V : Valuation τ sig (Elt F)) : val3 V (no_index (Proc.devRef .tc main_arg12)) = V (Proc.devRef .tc main_arg12) := (val3_keep V main_arg12 (by decide)).trans (val2_main_arg12 V)
theorem val4_main_arg12 (V : Valuation τ sig (Elt F)) : val4 V (no_index (Proc.devRef .tc main_arg12)) = V (Proc.devRef .tc main_arg12) := (val4_keep V main_arg12 (by decide)).trans (val3_main_arg12 V)
theorem val5_main_arg12 (V : Valuation τ sig (Elt F)) : val5 V (no_index (Proc.devRef .tc main_arg12)) = V (Proc.devRef .tc main_arg12) := (val5_keep V main_arg12 (by decide)).trans (val4_main_arg12 V)
theorem val6_main_arg12 (V : Valuation τ sig (Elt F)) : val6 V (no_index (Proc.devRef .tc main_arg12)) = V (Proc.devRef .tc main_arg12) := (val6_keep V main_arg12 (by decide) (by decide)).trans (val5_main_arg12 V)
theorem val1_main_arg13 (V : Valuation τ sig (Elt F)) : val1 V (no_index (Proc.devRef .tc main_arg13)) = V (Proc.devRef .tc main_arg13) := val1_keep V main_arg13 (by decide)
theorem val2_main_arg13 (V : Valuation τ sig (Elt F)) : val2 V (no_index (Proc.devRef .tc main_arg13)) = V (Proc.devRef .tc main_arg13) := (val2_keep V main_arg13 (by decide)).trans (val1_main_arg13 V)
theorem val3_main_arg13 (V : Valuation τ sig (Elt F)) : val3 V (no_index (Proc.devRef .tc main_arg13)) = V (Proc.devRef .tc main_arg13) := (val3_keep V main_arg13 (by decide)).trans (val2_main_arg13 V)
theorem val4_main_arg13 (V : Valuation τ sig (Elt F)) : val4 V (no_index (Proc.devRef .tc main_arg13)) = V (Proc.devRef .tc main_arg13) := (val4_keep V main_arg13 (by decide)).trans (val3_main_arg13 V)
theorem val5_main_arg13 (V : Valuation τ sig (Elt F)) : val5 V (no_index (Proc.devRef .tc main_arg13)) = V (Proc.devRef .tc main_arg13) := (val5_keep V main_arg13 (by decide)).trans (val4_main_arg13 V)
theorem val6_main_arg13 (V : Valuation τ sig (Elt F)) : val6 V (no_index (Proc.devRef .tc main_arg13)) = V (Proc.devRef .tc main_arg13) := (val6_keep V main_arg13 (by decide) (by decide)).trans (val5_main_arg13 V)
theorem val1_main_arg14 (V : Valuation τ sig (Elt F)) : val1 V (no_index (Proc.devRef .tc main_arg14)) = V (Proc.devRef .tc main_arg14) := val1_keep V main_arg14 (by decide)
theorem val2_main_arg14 (V : Valuation τ sig (Elt F)) : val2 V (no_index (Proc.devRef .tc main_arg14)) = V (Proc.devRef .tc main_arg14) := (val2_keep V main_arg14 (by decide)).trans (val1_main_arg14 V)
theorem val3_main_arg14 (V : Valuation τ sig (Elt F)) : val3 V (no_index (Proc.devRef .tc main_arg14)) = V (Proc.devRef .tc main_arg14) := (val3_keep V main_arg14 (by decide)).trans (val2_main_arg14 V)
theorem val4_main_arg14 (V : Valuation τ sig (Elt F)) : val4 V (no_index (Proc.devRef .tc main_arg14)) = V (Proc.devRef .tc main_arg14) := (val4_keep V main_arg14 (by decide)).trans (val3_main_arg14 V)
theorem val5_main_arg14 (V : Valuation τ sig (Elt F)) : val5 V (no_index (Proc.devRef .tc main_arg14)) = V (Proc.devRef .tc main_arg14) := (val5_keep V main_arg14 (by decide)).trans (val4_main_arg14 V)
theorem val6_main_arg14 (V : Valuation τ sig (Elt F)) : val6 V (no_index (Proc.devRef .tc main_arg14)) = V (Proc.devRef .tc main_arg14) := (val6_keep V main_arg14 (by decide) (by decide)).trans (val5_main_arg14 V)
theorem val1_main_arg15 (V : Valuation τ sig (Elt F)) : val1 V (no_index (Proc.devRef .tc main_arg15)) = V (Proc.devRef .tc main_arg15) := val1_keep V main_arg15 (by decide)
theorem val2_main_arg15 (V : Valuation τ sig (Elt F)) : val2 V (no_index (Proc.devRef .tc main_arg15)) = V (Proc.devRef .tc main_arg15) := (val2_keep V main_arg15 (by decide)).trans (val1_main_arg15 V)
theorem val3_main_arg15 (V : Valuation τ sig (Elt F)) : val3 V (no_index (Proc.devRef .tc main_arg15)) = V (Proc.devRef .tc main_arg15) := (val3_keep V main_arg15 (by decide)).trans (val2_main_arg15 V)
theorem val4_main_arg15 (V : Valuation τ sig (Elt F)) : val4 V (no_index (Proc.devRef .tc main_arg15)) = V (Proc.devRef .tc main_arg15) := (val4_keep V main_arg15 (by decide)).trans (val3_main_arg15 V)
theorem val5_main_arg15 (V : Valuation τ sig (Elt F)) : val5 V (no_index (Proc.devRef .tc main_arg15)) = V (Proc.devRef .tc main_arg15) := (val5_keep V main_arg15 (by decide)).trans (val4_main_arg15 V)
theorem val6_main_arg15 (V : Valuation τ sig (Elt F)) : val6 V (no_index (Proc.devRef .tc main_arg15)) = V (Proc.devRef .tc main_arg15) := (val6_keep V main_arg15 (by decide) (by decide)).trans (val5_main_arg15 V)
theorem val1_main_arg16 (V : Valuation τ sig (Elt F)) : val1 V (no_index (Proc.devRef .tc main_arg16)) = V (Proc.devRef .tc main_arg16) := val1_keep V main_arg16 (by decide)
theorem val2_main_arg16 (V : Valuation τ sig (Elt F)) : val2 V (no_index (Proc.devRef .tc main_arg16)) = V (Proc.devRef .tc main_arg16) := (val2_keep V main_arg16 (by decide)).trans (val1_main_arg16 V)
theorem val3_main_arg16 (V : Valuation τ sig (Elt F)) : val3 V (no_index (Proc.devRef .tc main_arg16)) = V (Proc.devRef .tc main_arg16) := (val3_keep V main_arg16 (by decide)).trans (val2_main_arg16 V)
theorem val4_main_arg16 (V : Valuation τ sig (Elt F)) : val4 V (no_index (Proc.devRef .tc main_arg16)) = V (Proc.devRef .tc main_arg16) := (val4_keep V main_arg16 (by decide)).trans (val3_main_arg16 V)
theorem val5_main_arg16 (V : Valuation τ sig (Elt F)) : val5 V (no_index (Proc.devRef .tc main_arg16)) = V (Proc.devRef .tc main_arg16) := (val5_keep V main_arg16 (by decide)).trans (val4_main_arg16 V)
theorem val6_main_arg16 (V : Valuation τ sig (Elt F)) : val6 V (no_index (Proc.devRef .tc main_arg16)) = V (Proc.devRef .tc main_arg16) := (val6_keep V main_arg16 (by decide) (by decide)).trans (val5_main_arg16 V)
theorem val1_main_arg17 (V : Valuation τ sig (Elt F)) : val1 V (no_index (Proc.devRef .tc main_arg17)) = V (Proc.devRef .tc main_arg17) := val1_keep V main_arg17 (by decide)
theorem val2_main_arg17 (V : Valuation τ sig (Elt F)) : val2 V (no_index (Proc.devRef .tc main_arg17)) = V (Proc.devRef .tc main_arg17) := (val2_keep V main_arg17 (by decide)).trans (val1_main_arg17 V)
theorem val3_main_arg17 (V : Valuation τ sig (Elt F)) : val3 V (no_index (Proc.devRef .tc main_arg17)) = V (Proc.devRef .tc main_arg17) := (val3_keep V main_arg17 (by decide)).trans (val2_main_arg17 V)
theorem val4_main_arg17 (V : Valuation τ sig (Elt F)) : val4 V (no_index (Proc.devRef .tc main_arg17)) = V (Proc.devRef .tc main_arg17) := (val4_keep V main_arg17 (by decide)).trans (val3_main_arg17 V)
theorem val5_main_arg17 (V : Valuation τ sig (Elt F)) : val5 V (no_index (Proc.devRef .tc main_arg17)) = V (Proc.devRef .tc main_arg17) := (val5_keep V main_arg17 (by decide)).trans (val4_main_arg17 V)
theorem val6_main_arg17 (V : Valuation τ sig (Elt F)) : val6 V (no_index (Proc.devRef .tc main_arg17)) = V (Proc.devRef .tc main_arg17) := (val6_keep V main_arg17 (by decide) (by decide)).trans (val5_main_arg17 V)

/-! ### The reciprocal in-degrees, written once by the opening and read by every round -/

theorem val1_main_v7 (V : Valuation τ sig (Elt F)) : val1 V (no_index (Proc.devRef .tc main_v7)) = Cert.Sage.dinv (V (Proc.devRef .tc main_arg2)) := s0_out V
theorem val2_main_v7 (V : Valuation τ sig (Elt F)) : val2 V (no_index (Proc.devRef .tc main_v7)) = Cert.Sage.dinv (V (Proc.devRef .tc main_arg2)) := (val2_keep V main_v7 (by decide)).trans (val1_main_v7 V)
theorem val3_main_v7 (V : Valuation τ sig (Elt F)) : val3 V (no_index (Proc.devRef .tc main_v7)) = Cert.Sage.dinv (V (Proc.devRef .tc main_arg2)) := (val3_keep V main_v7 (by decide)).trans (val2_main_v7 V)
theorem val4_main_v7 (V : Valuation τ sig (Elt F)) : val4 V (no_index (Proc.devRef .tc main_v7)) = Cert.Sage.dinv (V (Proc.devRef .tc main_arg2)) := (val4_keep V main_v7 (by decide)).trans (val3_main_v7 V)
theorem val5_main_v7 (V : Valuation τ sig (Elt F)) : val5 V (no_index (Proc.devRef .tc main_v7)) = Cert.Sage.dinv (V (Proc.devRef .tc main_arg2)) := (val5_keep V main_v7 (by decide)).trans (val4_main_v7 V)

/-! ### Each round's table is the round's function of the one before -/

theorem val2_main_v27 (V : Valuation τ sig (Elt F)) : val2 V (no_index (Proc.devRef .tc main_v27)) = Cert.Sage.round0 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val2
  rw [r0_out]
  simp only [val1_main_arg0, val1_main_arg1, val1_main_arg2, val1_main_arg3, val1_main_arg4, val1_main_arg5, val1_main_v7]
  rfl
theorem val3_main_v47 (V : Valuation τ sig (Elt F)) : val3 V (no_index (Proc.devRef .tc main_v47)) = Cert.Sage.roundM (Cert.Sage.round0 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg2)) (V (Proc.devRef .tc main_arg6)) (V (Proc.devRef .tc main_arg7)) (V (Proc.devRef .tc main_arg8)) := by
  unfold val3
  rw [r1_out]
  simp only [val2_main_v27, val2_main_arg1, val2_main_arg2, val2_main_arg6, val2_main_arg7, val2_main_arg8, val2_main_v7]
  rfl
theorem val4_main_v67 (V : Valuation τ sig (Elt F)) : val4 V (no_index (Proc.devRef .tc main_v67)) = Cert.Sage.roundM (Cert.Sage.roundM (Cert.Sage.round0 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg2)) (V (Proc.devRef .tc main_arg6)) (V (Proc.devRef .tc main_arg7)) (V (Proc.devRef .tc main_arg8))) (V (Proc.devRef .tc main_arg1)) (V (Proc.devRef .tc main_arg2)) (V (Proc.devRef .tc main_arg9)) (V (Proc.devRef .tc main_arg10)) (V (Proc.devRef .tc main_arg11)) := by
  unfold val4
  rw [r2_out]
  simp only [val3_main_v47, val3_main_arg1, val3_main_arg2, val3_main_arg9, val3_main_arg10, val3_main_arg11, val3_main_v7]
  rfl
theorem val5_main_v87 (V : Valuation τ sig (Elt F)) : val5 V (no_index (Proc.devRef .tc main_v87)) = Cert.Sage.roundM (Cert.Sage.roundM (Cert.Sage.roundM (Cert.Sage.round0 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg1)) (V (Proc.devRef .tc main_arg2)) (V (Proc.devRef .tc main_arg6)) (V (Proc.devRef .tc main_arg7)) (V (Proc.devRef .tc main_arg8))) (V (Proc.devRef .tc main_arg1)) (V (Proc.devRef .tc main_arg2)) (V (Proc.devRef .tc main_arg9)) (V (Proc.devRef .tc main_arg10)) (V (Proc.devRef .tc main_arg11))) (V (Proc.devRef .tc main_arg1)) (V (Proc.devRef .tc main_arg2)) (V (Proc.devRef .tc main_arg12)) (V (Proc.devRef .tc main_arg13)) (V (Proc.devRef .tc main_arg14)) := by
  unfold val5
  rw [r3_out]
  simp only [val4_main_v67, val4_main_arg1, val4_main_arg2, val4_main_arg12, val4_main_arg13, val4_main_arg14, val4_main_v7]
  rfl
/-- The result: the five rounds of the eighteen arguments. -/
theorem val6_main_v106 (V : Valuation τ sig (Elt F)) : val6 V (no_index (Proc.devRef .tc main_v106)) = Cert.Sage.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold val6
  rw [r4_out]
  simp only [val5_main_v87, val5_main_arg1, val5_main_arg2, val5_main_arg15, val5_main_arg16, val5_main_arg17, val5_main_v7]
  rfl

/-- On every device, for any float values, from any memory with zero counters: every weakly fair execution of @main
    terminates with the result buffer at the five rounds of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v106).trans (by simp only [after_ops]; exact val6_main_v106 (launchContents m c)),
      (h c main_arg0).trans (by simp only [after_ops]; exact val6_main_arg0 (launchContents m c)),
      (h c main_arg1).trans (by simp only [after_ops]; exact val6_main_arg1 (launchContents m c)),
      (h c main_arg2).trans (by simp only [after_ops]; exact val6_main_arg2 (launchContents m c)),
      (h c main_arg3).trans (by simp only [after_ops]; exact val6_main_arg3 (launchContents m c)),
      (h c main_arg4).trans (by simp only [after_ops]; exact val6_main_arg4 (launchContents m c)),
      (h c main_arg5).trans (by simp only [after_ops]; exact val6_main_arg5 (launchContents m c)),
      (h c main_arg6).trans (by simp only [after_ops]; exact val6_main_arg6 (launchContents m c)),
      (h c main_arg7).trans (by simp only [after_ops]; exact val6_main_arg7 (launchContents m c)),
      (h c main_arg8).trans (by simp only [after_ops]; exact val6_main_arg8 (launchContents m c)),
      (h c main_arg9).trans (by simp only [after_ops]; exact val6_main_arg9 (launchContents m c)),
      (h c main_arg10).trans (by simp only [after_ops]; exact val6_main_arg10 (launchContents m c)),
      (h c main_arg11).trans (by simp only [after_ops]; exact val6_main_arg11 (launchContents m c)),
      (h c main_arg12).trans (by simp only [after_ops]; exact val6_main_arg12 (launchContents m c)),
      (h c main_arg13).trans (by simp only [after_ops]; exact val6_main_arg13 (launchContents m c)),
      (h c main_arg14).trans (by simp only [after_ops]; exact val6_main_arg14 (launchContents m c)),
      (h c main_arg15).trans (by simp only [after_ops]; exact val6_main_arg15 (launchContents m c)),
      (h c main_arg16).trans (by simp only [after_ops]; exact val6_main_arg16 (launchContents m c)),
      (h c main_arg17).trans (by simp only [after_ops]; exact val6_main_arg17 (launchContents m c))⟩)
    (run_seq scopedRefs_eq scopedSems_eq defs main (fun _ => ops) main_eq (fun _ => ops_sub) m ρ (fun _ => ops_fresh))

end Cert.ReferenceIdeal.RefValue

end
-- ==== Proof.lean ====
/-
  The kernel and its reference compute the same five rounds of mean aggregation over a graph.

  Both programs take node features (100000 × 3), an edge list (src, dst : 3200000 nodes each) and five triples
  (Ws, Wn, b). With d(v) the number of edges ending at v and w = 1 / max(d, 1), a round maps a feature table x to
      x · Ws + (w ⊙ A x) · Wn + b,      (A x)(v) = the sum of the rows x[src e] over the edges e with dst e = v,
  followed in the first four rounds by the leaky rectifier with slope 0.01 (the same f32 word in both programs).
  The gather, the scatter-sum and the scaling by w are the same host operations in both programs. The kernel does the
  affine map and the rectifier in five regions of ten blocks of 10000 rows each, its matrix products on operands rounded
  to bf16 and accumulated into zero, its rectifier testing y > 0; the reference multiplies whole tables and tests y ≥ 0.
  On the extended reals the roundings are the identity, 0 + s = s, a row of a block is a row of the table, and the two
  rectifiers agree (at y = 0 both give 0): entry by entry the two results are one function of the arguments
  (`Cert.Sage.out`). No step uses that the inputs are finite: the precondition is not opened.

  The three frames are the generated frame proofs of the two kernel programs and the reference's run with its result
  dropped; the idealization rewrote nothing, so `preserves` is trivial.
-/
import proofs.«144254_j14224931685026_1_alg».proof.Defs
import proofs.«144254_j14224931685026_1_alg».proof.Proof.Gen.Kernel
import proofs.«144254_j14224931685026_1_alg».proof.Proof.Gen.Kernel.Frame
import proofs.«144254_j14224931685026_1_alg».proof.Proof.Gen.KernelIdeal
import proofs.«144254_j14224931685026_1_alg».proof.Proof.Gen.KernelIdeal.Frame
import proofs.«144254_j14224931685026_1_alg».proof.Proof.Gen.ReferenceIdeal
import proofs.«144254_j14224931685026_1_alg».proof.Proof.Gen.Pre_finite_inputs
import proofs.«144254_j14224931685026_1_alg».proof.Proof.KRun
import proofs.«144254_j14224931685026_1_alg».proof.Proof.Chain
import proofs.«144254_j14224931685026_1_alg».proof.Proof.RefRun

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories agreeing on the arguments both programs end with the five rounds of those arguments in their result
    buffers: the kernel's fold read back to the launch contents, the reference's run, and the agreement rewritten. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Chain.result m ρ c), (h c).2⟩)
      (Cert.KernelIdeal.KValue.run_main (F := Ideal) m ρ)
  · refine (θ_run Cert.ReferenceIdeal.defs _ _).mono (fun r h c => ⟨(h c).1.trans ?_, (h c).2⟩)
      (Cert.ReferenceIdeal.RefValue.run (F := Ideal) m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
